-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000x2 : Shape := ⟨3, ![4096, 10000, 2]⟩
abbrev S4096x100 : Shape := ⟨2, ![4096, 100]⟩
abbrev S_ : Shape := ⟨0, ![]⟩

class Facts : Prop where
  bcast_S_S4096x10000x2 : S_.BroadcastsInDim S4096x10000x2 (![] : Fin 0 → Fin S4096x10000x2.rank)
  reducesTo_S4096x10000x2_S_d0_1_2 : S4096x10000x2.ReducesTo [0, 1, 2] S_
  h_S_ : 0 < S_.numel
  bcast_S_S4096x100 : S_.BroadcastsInDim S4096x100 (![] : Fin 0 → Fin S4096x100.rank)
  reducesTo_S4096x100_S_d0_1 : S4096x100.ReducesTo [0, 1] S_

variable [Facts]

def fn {F : FTy → Type} [FloatOps F] (main_arg0 : FVec F S4096x10000x2 .f32) (main_arg1 : IVec S4096x100 32) : IVec S_ 1 :=
  let main_v0 : FVec F S4096x10000x2 .f32 := Host.absf main_arg0
  let main_cst : FVec F S_ .f32 := constant S_ .f32 0x7F800000#32
  let main_v1 : FVec F S4096x10000x2 .f32 := broadcastInDim S4096x10000x2 ![] bcast_S_S4096x10000x2 main_cst
  let main_v2 : IVec S4096x10000x2 1 := cmpf .olt main_v0 main_v1
  let main_c : IVec S_ 1 := constantI S_ 1 1#1
  let main_v3 : IVec S_ 1 := (fun x v => Host.reduce IntOp.andi x v reducesTo_S4096x10000x2_S_d0_1_2 h_S_) main_v2 main_c
  let main_c_0 : IVec S_ 32 := constantI S_ 32 4294957296#32
  let main_v4 : IVec S4096x100 32 := broadcastInDim S4096x100 ![] bcast_S_S4096x100 main_c_0
  let main_v5 : IVec S4096x100 1 := cmpi .sge main_arg1 main_v4
  let main_c_1 : IVec S_ 32 := constantI S_ 32 10000#32
  let main_v6 : IVec S4096x100 32 := broadcastInDim S4096x100 ![] bcast_S_S4096x100 main_c_1
  let main_v7 : IVec S4096x100 1 := cmpi .slt main_arg1 main_v6
  let main_v8 : IVec S4096x100 1 := andi main_v5 main_v7
  let main_c_2 : IVec S_ 1 := constantI S_ 1 1#1
  let main_v9 : IVec S_ 1 := (fun x v => Host.reduce IntOp.andi x v reducesTo_S4096x100_S_d0_1 h_S_) main_v8 main_c_2
  let main_v10 : IVec S_ 1 := andi main_v3 main_v9
  main_v10
-- ==== Kernel.lean ====
abbrev S4096x10000x2 : Shape := ⟨3, ![4096, 10000, 2]⟩
abbrev S4096x100 : Shape := ⟨2, ![4096, 100]⟩
abbrev S_ : Shape := ⟨0, ![]⟩
abbrev S4096x100x1 : Shape := ⟨3, ![4096, 100, 1]⟩
abbrev S4096x100x2 : Shape := ⟨3, ![4096, 100, 2]⟩
abbrev S4096x100x2x1 : Shape := ⟨4, ![4096, 100, 2, 1]⟩
abbrev S1 : Shape := ⟨1, ![1]⟩
abbrev S1x1x1x1 : Shape := ⟨4, ![1, 1, 1, 1]⟩
abbrev S4096 : Shape := ⟨1, ![4096]⟩
abbrev S4096x1 : Shape := ⟨2, ![4096, 1]⟩
abbrev S4096x5 : Shape := ⟨2, ![4096, 5]⟩
abbrev S4096x20000 : Shape := ⟨2, ![4096, 20000]⟩
abbrev S20000 : Shape := ⟨1, ![20000]⟩
abbrev S1x20000 : Shape := ⟨2, ![1, 20000]⟩
abbrev S64x20000 : Shape := ⟨2, ![64, 20000]⟩
abbrev S64x5 : Shape := ⟨2, ![64, 5]⟩
abbrev S64x1 : Shape := ⟨2, ![64, 1]⟩

abbrev nBuf : Space → Nat
  | .hbm => 129
  | .vmem => 7
  | .smem => 0
  | _ => 0

abbrev hbmTy0_0 (i : Nat) : BufTy := match i % 128 with
  | 0 => ⟨S4096x10000x2, .f32⟩
  | 1 => ⟨S4096x100, .i32⟩
  | 2 => ⟨S_, .i32⟩
  | 3 => ⟨S4096x100, .i32⟩
  | 4 => ⟨S4096x100, .i1⟩
  | 5 => ⟨S_, .i32⟩
  | 6 => ⟨S_, .i32⟩
  | 7 => ⟨S4096x100, .i32⟩
  | 8 => ⟨S4096x100, .i32⟩
  | 9 => ⟨S4096x100x1, .i32⟩
  | 10 => ⟨S4096x100x2, .i32⟩
  | 11 => ⟨S_, .i32⟩
  | 12 => ⟨S4096x100x2, .i32⟩
  | 13 => ⟨S4096x100x2, .i1⟩
  | 14 => ⟨S_, .i32⟩
  | 15 => ⟨S4096x100x2, .i32⟩
  | 16 => ⟨S4096x100x2, .i32⟩
  | 17 => ⟨S4096x100x2, .i32⟩
  | 18 => ⟨S4096x100x2x1, .i32⟩
  | 19 => ⟨S1, .i32⟩
  | 20 => ⟨S_, .i32⟩
  | 21 => ⟨S4096x100x2x1, .i32⟩
  | 22 => ⟨S4096x100x2x1, .i1⟩
  | 23 => ⟨S1x1x1x1, .i32⟩
  | 24 => ⟨S4096x100x2x1, .i32⟩
  | 25 => ⟨S4096x100x2x1, .i1⟩
  | 26 => ⟨S4096x100x2x1, .i1⟩
  | 27 => ⟨S_, .i1⟩
  | 28 => ⟨S4096x100x2, .i1⟩
  | 29 => ⟨S4096x100x2, .f32⟩
  | 30 => ⟨S_, .f32⟩
  | 31 => ⟨S4096x100x2, .f32⟩
  | 32 => ⟨S4096x100x2, .f32⟩
  | 33 => ⟨S4096x100x1, .f32⟩
  | 34 => ⟨S4096x100, .f32⟩
  | 35 => ⟨S4096x100x1, .f32⟩
  | 36 => ⟨S4096x100, .f32⟩
  | 37 => ⟨S_, .f32⟩
  | 38 => ⟨S4096x100, .f32⟩
  | 39 => ⟨S4096x100, .f32⟩
  | 40 => ⟨S_, .f32⟩
  | 41 => ⟨S4096, .f32⟩
  | 42 => ⟨S_, .f32⟩
  | 43 => ⟨S_, .f32⟩
  | 44 => ⟨S4096x100, .f32⟩
  | 45 => ⟨S4096x100, .f32⟩
  | 46 => ⟨S_, .f32⟩
  | 47 => ⟨S4096, .f32⟩
  | 48 => ⟨S_, .f32⟩
  | 49 => ⟨S4096x100, .f32⟩
  | 50 => ⟨S4096x100, .f32⟩
  | 51 => ⟨S_, .f32⟩
  | 52 => ⟨S4096, .f32⟩
  | 53 => ⟨S_, .f32⟩
  | 54 => ⟨S_, .f32⟩
  | 55 => ⟨S4096x100, .f32⟩
  | 56 => ⟨S4096x100, .f32⟩
  | 57 => ⟨S_, .f32⟩
  | 58 => ⟨S4096, .f32⟩
  | 59 => ⟨S4096, .f32⟩
  | 60 => ⟨S4096, .f32⟩
  | 61 => ⟨S4096, .f32⟩
  | 62 => ⟨S_, .f32⟩
  | 63 => ⟨S_, .f32⟩
  | 64 => ⟨S4096, .f32⟩
  | 65 => ⟨S4096, .f32⟩
  | 66 => ⟨S_, .f32⟩
  | 67 => ⟨S4096, .f32⟩
  | 68 => ⟨S4096, .f32⟩
  | 69 => ⟨S_, .i1⟩
  | 70 => ⟨S4096, .i1⟩
  | 71 => ⟨S_, .f32⟩
  | 72 => ⟨S4096, .f32⟩
  | 73 => ⟨S4096, .f32⟩
  | 74 => ⟨S4096, .f32⟩
  | 75 => ⟨S4096, .f32⟩
  | 76 => ⟨S4096, .f32⟩
  | 77 => ⟨S4096, .f32⟩
  | 78 => ⟨S_, .f32⟩
  | 79 => ⟨S4096, .f32⟩
  | 80 => ⟨S4096, .f32⟩
  | 81 => ⟨S_, .f32⟩
  | 82 => ⟨S4096, .f32⟩
  | 83 => ⟨S4096, .f32⟩
  | 84 => ⟨S_, .f32⟩
  | 85 => ⟨S_, .f32⟩
  | 86 => ⟨S_, .f32⟩
  | 87 => ⟨S4096, .f32⟩
  | 88 => ⟨S4096, .f32⟩
  | 89 => ⟨S4096, .f32⟩
  | 90 => ⟨S_, .f32⟩
  | 91 => ⟨S_, .f32⟩
  | 92 => ⟨S4096, .f32⟩
  | 93 => ⟨S4096, .f32⟩
  | 94 => ⟨S4096, .f32⟩
  | 95 => ⟨S4096x1, .f32⟩
  | 96 => ⟨S4096x1, .f32⟩
  | 97 => ⟨S4096x1, .f32⟩
  | 98 => ⟨S4096x1, .f32⟩
  | 99 => ⟨S4096x1, .f32⟩
  | 100 => ⟨S4096x5, .f32⟩
  | 101 => ⟨S4096x20000, .f32⟩
  | 102 => ⟨S20000, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S20000, .i32⟩
  | 110 => ⟨S20000, .i32⟩
  | 111 => ⟨S_, .i32⟩
  | 112 => ⟨S20000, .i32⟩
  | 113 => ⟨S20000, .i1⟩
  | 114 => ⟨S_, .i32⟩
  | 115 => ⟨S20000, .i32⟩
  | 116 => ⟨S20000, .i1⟩
  | 117 => ⟨S_, .i32⟩
  | 118 => ⟨S_, .i1⟩
  | 119 => ⟨S20000, .i1⟩
  | 120 => ⟨S20000, .i1⟩
  | 121 => ⟨S20000, .i1⟩
  | 122 => ⟨S20000, .i32⟩
  | 123 => ⟨S20000, .i32⟩
  | 124 => ⟨S20000, .i32⟩
  | 125 => ⟨S20000, .f32⟩
  | 126 => ⟨S1x20000, .f32⟩
  | 127 => ⟨S4096x20000, .f32⟩
  | _ => ⟨S4096x10000x2, .f32⟩

abbrev hbmTy0_1 (i : Nat) : BufTy := match i % 128 with
  | 0 => ⟨S4096x10000x2, .f32⟩
  | _ => ⟨S4096x10000x2, .f32⟩

abbrev hbmTy (i : Nat) : BufTy := match i / 128 with
  | 0 => hbmTy0_0 i
  | 1 => hbmTy0_1 i
  | _ => ⟨S4096x10000x2, .f32⟩

abbrev bufTy : (tb : Table) → Fin (tcTables nBuf tb) → BufTy
  | .hbm, ⟨i, _⟩ => hbmTy i
  | .local _ .vmem, ⟨0, _⟩ => ⟨S64x20000, .f32⟩
  | .local _ .vmem, ⟨1, _⟩ => ⟨S64x20000, .f32⟩
  | .local _ .vmem, ⟨2, _⟩ => ⟨S1x20000, .f32⟩
  | .local _ .vmem, ⟨3, _⟩ => ⟨S64x5, .f32⟩
  | .local _ .vmem, ⟨4, _⟩ => ⟨S64x5, .f32⟩
  | .local _ .vmem, ⟨5, _⟩ => ⟨S64x20000, .f32⟩
  | .local _ .vmem, ⟨6, _⟩ => ⟨S64x20000, .f32⟩
  | _, _ => ⟨S4096x10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_call2_v0 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_call3_v0 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_cst_4 : Ref sig .tc := ⟨.hbm, 48, rfl⟩
abbrev main_call4_v0 : Ref sig .tc := ⟨.hbm, 49, rfl⟩
abbrev main_v15 : Ref sig .tc := ⟨.hbm, 50, rfl⟩
abbrev main_cst_5 : Ref sig .tc := ⟨.hbm, 51, rfl⟩
abbrev main_v16 : Ref sig .tc := ⟨.hbm, 52, rfl⟩
abbrev main_cst_6 : Ref sig .tc := ⟨.hbm, 53, rfl⟩
abbrev main_v17 : Ref sig .tc := ⟨.hbm, 54, rfl⟩
abbrev main_call5_v0 : Ref sig .tc := ⟨.hbm, 55, rfl⟩
abbrev main_v18 : Ref sig .tc := ⟨.hbm, 56, rfl⟩
abbrev main_cst_7 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_8 : Ref sig .tc := ⟨.hbm, 62, rfl⟩
abbrev main_call6_v0 : Ref sig .tc := ⟨.hbm, 63, rfl⟩
abbrev main_call6_v1 : Ref sig .tc := ⟨.hbm, 64, rfl⟩
abbrev main_v23 : Ref sig .tc := ⟨.hbm, 65, rfl⟩
abbrev main_cst_9 : Ref sig .tc := ⟨.hbm, 66, rfl⟩
abbrev main_v24 : Ref sig .tc := ⟨.hbm, 67, rfl⟩
abbrev main_v25 : Ref sig .tc := ⟨.hbm, 68, rfl⟩
abbrev main_c_10 : Ref sig .tc := ⟨.hbm, 69, rfl⟩
abbrev main_v26 : Ref sig .tc := ⟨.hbm, 70, rfl⟩
abbrev main_cst_11 : Ref sig .tc := ⟨.hbm, 71, rfl⟩
abbrev main_call7_v0 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_12 : Ref sig .tc := ⟨.hbm, 78, rfl⟩
abbrev main_call8_v0 : Ref sig .tc := ⟨.hbm, 79, rfl⟩
abbrev main_v32 : Ref sig .tc := ⟨.hbm, 80, rfl⟩
abbrev main_cst_13 : Ref sig .tc := ⟨.hbm, 81, rfl⟩
abbrev main_call9_v0 : Ref sig .tc := ⟨.hbm, 82, rfl⟩
abbrev main_v33 : Ref sig .tc := ⟨.hbm, 83, rfl⟩
abbrev main_cst_14 : Ref sig .tc := ⟨.hbm, 84, rfl⟩
abbrev main_v34 : Ref sig .tc := ⟨.hbm, 85, rfl⟩
abbrev main_cst_15 : Ref sig .tc := ⟨.hbm, 86, rfl⟩
abbrev main_call10_v0 : Ref sig .tc := ⟨.hbm, 87, rfl⟩
abbrev main_call10_v1 : Ref sig .tc := ⟨.hbm, 88, rfl⟩
abbrev main_v35 : Ref sig .tc := ⟨.hbm, 89, rfl⟩
abbrev main_cst_16 : Ref sig .tc := ⟨.hbm, 90, rfl⟩
abbrev main_cst_17 : Ref sig .tc := ⟨.hbm, 91, rfl⟩
abbrev main_call11_v0 : Ref sig .tc := ⟨.hbm, 92, rfl⟩
abbrev main_call11_v1 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_18 : Ref sig .tc := ⟨.hbm, 103, rfl⟩
abbrev main_call12_v0 : Ref sig .tc := ⟨.hbm, 104, rfl⟩
abbrev main_call12_c : Ref sig .tc := ⟨.hbm, 105, rfl⟩
abbrev main_call12_v1 : Ref sig .tc := ⟨.hbm, 106, rfl⟩
abbrev main_call12_c_0 : Ref sig .tc := ⟨.hbm, 107, rfl⟩
abbrev main_call12_v2 : Ref sig .tc := ⟨.hbm, 108, rfl⟩
abbrev main_call12_v3 : Ref sig .tc := ⟨.hbm, 109, rfl⟩
abbrev main_call12_v4 : Ref sig .tc := ⟨.hbm, 110, rfl⟩
abbrev main_call12_c_1 : Ref sig .tc := ⟨.hbm, 111, rfl⟩
abbrev main_call12_v5 : Ref sig .tc := ⟨.hbm, 112, rfl⟩
abbrev main_call12_v6 : Ref sig .tc := ⟨.hbm, 113, rfl⟩
abbrev main_call12_c_2 : Ref sig .tc := ⟨.hbm, 114, rfl⟩
abbrev main_call12_v7 : Ref sig .tc := ⟨.hbm, 115, rfl⟩
abbrev main_call12_v8 : Ref sig .tc := ⟨.hbm, 116, rfl⟩
abbrev main_call12_c_3 : Ref sig .tc := ⟨.hbm, 117, rfl⟩
abbrev main_call12_v9 : Ref sig .tc := ⟨.hbm, 118, rfl⟩
abbrev main_call12_v10 : Ref sig .tc := ⟨.hbm, 119, rfl⟩
abbrev main_call12_v11 : Ref sig .tc := ⟨.hbm, 120, rfl⟩
abbrev main_call12_v12 : Ref sig .tc := ⟨.hbm, 121, rfl⟩
abbrev main_call12_v13 : Ref sig .tc := ⟨.hbm, 122, rfl⟩
abbrev main_call12_v14 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x20000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  bcast_S4096x100x1_S4096x100x2_0_1_2 : S4096x100x1.BroadcastsInDim S4096x100x2 (![0, 1, 2] : Fin 3 → Fin S4096x100x2.rank)
  bcast_S_S4096x100x2 : S_.BroadcastsInDim S4096x100x2 (![] : Fin 0 → Fin S4096x100x2.rank)
  shapeCasts_S4096x100x2_S4096x100x2x1 : S4096x100x2.ShapeCasts S4096x100x2x1
  bcast_S_S4096x100x2x1 : S_.BroadcastsInDim S4096x100x2x1 (![] : Fin 0 → Fin S4096x100x2x1.rank)
  bcast_S1_S1x1x1x1_3 : S1.BroadcastsInDim S1x1x1x1 (![3] : Fin 1 → Fin S1x1x1x1.rank)
  bcast_S1x1x1x1_S4096x100x2x1_0_1_2_3 : S1x1x1x1.BroadcastsInDim S4096x100x2x1 (![0, 1, 2, 3] : Fin 4 → Fin S4096x100x2x1.rank)
  reducesTo_S4096x100x2x1_S4096x100x2_d3 : S4096x100x2x1.ReducesTo [3] S4096x100x2
  h_S_ : 0 < S_.numel
  slices_S4096x100x2_S4096x100x1_0_0_0 : S4096x100x2.Slices ![0, 0, 0] S4096x100x1
  shapeCasts_S4096x100x1_S4096x100 : S4096x100x1.ShapeCasts S4096x100
  slices_S4096x100x2_S4096x100x1_0_0_1 : S4096x100x2.Slices ![0, 0, 1] S4096x100x1
  reducesTo_S4096x100_S4096_d1 : S4096x100.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x1_S4096x1_S4096x1_S4096x5_d1 : Shape.Concatenates [S4096x1, S4096x1, S4096x1, S4096x1, S4096x1] S4096x5 1
  shapeCasts_S4096x10000x2_S4096x20000 : S4096x10000x2.ShapeCasts S4096x20000
  bcast_S_S20000 : S_.BroadcastsInDim S20000 (![] : Fin 0 → Fin S20000.rank)
  shapeCasts_S20000_S1x20000 : S20000.ShapeCasts S1x20000
  inb_S64x20000_S64x20000_0_0 : ∀ a, (![0, 0] : Fin 2 → Nat) a + S64x20000.size a ≤ S64x20000.size a
  h_S64x20000 : 0 < S64x20000.numel
  shapeCasts_S64x20000_S64x20000 : S64x20000.ShapeCasts S64x20000
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  inb_S64x5_S64x1_0_0 : ∀ a, (![0, 0] : Fin 2 → Nat) a + S64x1.size a ≤ S64x5.size a
  h_S64x1 : 0 < S64x1.numel
  shapeCasts_S64x1_S64x1 : S64x1.ShapeCasts S64x1
  inb_S64x5_S64x1_0_1 : ∀ a, (![0, 1] : Fin 2 → Nat) a + S64x1.size a ≤ S64x5.size a
  inb_S64x5_S64x1_0_2 : ∀ a, (![0, 2] : Fin 2 → Nat) a + S64x1.size a ≤ S64x5.size a
  inb_S64x5_S64x1_0_3 : ∀ a, (![0, 3] : Fin 2 → Nat) a + S64x1.size a ≤ S64x5.size a
  inb_S64x5_S64x1_0_4 : ∀ a, (![0, 4] : Fin 2 → Nat) a + S64x1.size a ≤ S64x5.size a
  broadcasts_S1x20000_S64x20000 : S1x20000.Broadcasts S64x20000
  broadcasts_S64x1_S64x20000 : S64x1.Broadcasts S64x20000
  shapeCasts_S4096x20000_S4096x10000x2 : S4096x20000.ShapeCasts S4096x10000x2
  gather_S4096x10000x2_S4096x100x2x1_S4096x100x2_n_1_02_02_1_3_111_wf : GatherDims.WF S4096x10000x2 S4096x100x2x1 S4096x100x2 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20000.size a ≤ S4096x20000.size a
  hwx0_0 : ∀ i : grid0.Coords, EltTy.bits .f32 = 32 ∨ (Rect.block (s := S4096x20000) S64x20000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20000.size a ≤ S1x20000.size a
  hwx0_1 : ∀ i : grid0.Coords, EltTy.bits .f32 = 32 ∨ (Rect.block (s := S1x20000) S1x20000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x5.size a ≤ S4096x5.size a
  hwx0_2 : ∀ i : grid0.Coords, EltTy.bits .f32 = 32 ∨ (Rect.block (s := S4096x5) S64x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x20000.size a ≤ S4096x20000.size a
  hwx0_3 : ∀ i : grid0.Coords, EltTy.bits .f32 = 32 ∨ (Rect.block (s := S4096x20000) S64x20000.size (cc0_transform_3 i) (hinb0_3 i)).WholeWords (EltTy.packing .f32)

variable [Facts₀]

def gather_S4096x10000x2_S4096x100x2x1_S4096x100x2_n_1_02_02_1_3_111 : GatherDims S4096x10000x2 S4096x100x2x1 S4096x100x2 where
  offsetDims := []
  collapsedSliceDims := [1]
  operandBatchingDims := [0, 2]
  startIndicesBatchingDims := [0, 2]
  startIndexMap := [1]
  indexVectorDim := 3
  sliceSizes := ![1, 1, 1]
  wf := gather_S4096x10000x2_S4096x100x2x1_S4096x100x2_n_1_02_02_1_3_111_wf

abbrev win0_0 : Pipeline.Window sig grid0 :=
  Pipeline.Window.ofSpec (Memref.whole main_v43) S64x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1x20000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S64x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S64x20000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x10000x2 : Shape := ⟨3, ![4096, 10000, 2]⟩
abbrev S4096x100 : Shape := ⟨2, ![4096, 100]⟩
abbrev S_ : Shape := ⟨0, ![]⟩
abbrev S4096x100x1 : Shape := ⟨3, ![4096, 100, 1]⟩
abbrev S4096x100x2 : Shape := ⟨3, ![4096, 100, 2]⟩
abbrev S4096x100x2x1 : Shape := ⟨4, ![4096, 100, 2, 1]⟩
abbrev S1 : Shape := ⟨1, ![1]⟩
abbrev S1x1x1x1 : Shape := ⟨4, ![1, 1, 1, 1]⟩
abbrev S4096 : Shape := ⟨1, ![4096]⟩
abbrev S4096x1 : Shape := ⟨2, ![4096, 1]⟩
abbrev S4096x2 : Shape := ⟨2, ![4096, 2]⟩
abbrev S4096x1x1 : Shape := ⟨3, ![4096, 1, 1]⟩
abbrev S4096x1x2 : Shape := ⟨3, ![4096, 1, 2]⟩

abbrev nBuf : Space → Nat
  | .hbm => 91
  | .vmem => 0
  | .smem => 0
  | _ => 0

abbrev bufTy : (tb : Table) → Fin (tcTables nBuf tb) → BufTy
  | .hbm, ⟨0, _⟩ => ⟨S4096x10000x2, .f32⟩
  | .hbm, ⟨1, _⟩ => ⟨S4096x100, .i32⟩
  | .hbm, ⟨2, _⟩ => ⟨S_, .i32⟩
  | .hbm, ⟨3, _⟩ => ⟨S4096x100, .i32⟩
  | .hbm, ⟨4, _⟩ => ⟨S4096x100, .i1⟩
  | .hbm, ⟨5, _⟩ => ⟨S_, .i32⟩
  | .hbm, ⟨6, _⟩ => ⟨S_, .i32⟩
  | .hbm, ⟨7, _⟩ => ⟨S4096x100, .i32⟩
  | .hbm, ⟨8, _⟩ => ⟨S4096x100, .i32⟩
  | .hbm, ⟨9, _⟩ => ⟨S4096x100x1, .i32⟩
  | .hbm, ⟨10, _⟩ => ⟨S4096x100x2, .i32⟩
  | .hbm, ⟨11, _⟩ => ⟨S_, .i32⟩
  | .hbm, ⟨12, _⟩ => ⟨S4096x100x2, .i32⟩
  | .hbm, ⟨13, _⟩ => ⟨S4096x100x2, .i1⟩
  | .hbm, ⟨14, _⟩ => ⟨S_, .i32⟩
  | .hbm, ⟨15, _⟩ => ⟨S4096x100x2, .i32⟩
  | .hbm, ⟨16, _⟩ => ⟨S4096x100x2, .i32⟩
  | .hbm, ⟨17, _⟩ => ⟨S4096x100x2, .i32⟩
  | .hbm, ⟨18, _⟩ => ⟨S4096x100x2x1, .i32⟩
  | .hbm, ⟨19, _⟩ => ⟨S1, .i32⟩
  | .hbm, ⟨20, _⟩ => ⟨S_, .i32⟩
  | .hbm, ⟨21, _⟩ => ⟨S4096x100x2x1, .i32⟩
  | .hbm, ⟨22, _⟩ => ⟨S4096x100x2x1, .i1⟩
  | .hbm, ⟨23, _⟩ => ⟨S1x1x1x1, .i32⟩
  | .hbm, ⟨24, _⟩ => ⟨S4096x100x2x1, .i32⟩
  | .hbm, ⟨25, _⟩ => ⟨S4096x100x2x1, .i1⟩
  | .hbm, ⟨26, _⟩ => ⟨S4096x100x2x1, .i1⟩
  | .hbm, ⟨27, _⟩ => ⟨S_, .i1⟩
  | .hbm, ⟨28, _⟩ => ⟨S4096x100x2, .i1⟩
  | .hbm, ⟨29, _⟩ => ⟨S4096x100x2, .f32⟩
  | .hbm, ⟨30, _⟩ => ⟨S_, .f32⟩
  | .hbm, ⟨31, _⟩ => ⟨S4096x100x2, .f32⟩
  | .hbm, ⟨32, _⟩ => ⟨S4096x100x2, .f32⟩
  | .hbm, ⟨33, _⟩ => ⟨S4096x100x1, .f32⟩
  | .hbm, ⟨34, _⟩ => ⟨S4096x100, .f32⟩
  | .hbm, ⟨35, _⟩ => ⟨S4096x100x1, .f32⟩
  | .hbm, ⟨36, _⟩ => ⟨S4096x100, .f32⟩
  | .hbm, ⟨37, _⟩ => ⟨S_, .f32⟩
  | .hbm, ⟨38, _⟩ => ⟨S4096x100, .f32⟩
  | .hbm, ⟨39, _⟩ => ⟨S4096x100, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S4096x100, .f32⟩
  | .hbm, ⟨45, _⟩ => ⟨S4096x100, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096x100, .f32⟩
  | .hbm, ⟨50, _⟩ => ⟨S4096x100, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S4096x100, .f32⟩
  | .hbm, ⟨56, _⟩ => ⟨S4096x100, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x1, .f32⟩
  | .hbm, ⟨71, _⟩ => ⟨S4096x2, .f32⟩
  | .hbm, ⟨72, _⟩ => ⟨S4096x1x1, .f32⟩
  | .hbm, ⟨73, _⟩ => ⟨S4096x1x2, .f32⟩
  | .hbm, ⟨74, _⟩ => ⟨S4096x10000x2, .f32⟩
  | .hbm, ⟨75, _⟩ => ⟨S4096x10000x2, .f32⟩
  | .hbm, ⟨76, _⟩ => ⟨S4096x10000x2, .f32⟩
  | .hbm, ⟨77, _⟩ => ⟨S4096x10000x2, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4096x10000x2, .f32⟩
  | .hbm, ⟨82, _⟩ => ⟨S4096x10000x2, .f32⟩
  | .hbm, ⟨83, _⟩ => ⟨S_, .f32⟩
  | .hbm, ⟨84, _⟩ => ⟨S4096x10000x2, .f32⟩
  | .hbm, ⟨85, _⟩ => ⟨S4096x10000x2, .f32⟩
  | .hbm, ⟨86, _⟩ => ⟨S_, .i1⟩
  | .hbm, ⟨87, _⟩ => ⟨S4096, .i1⟩
  | .hbm, ⟨88, _⟩ => ⟨S4096x1x1, .i1⟩
  | .hbm, ⟨89, _⟩ => ⟨S4096x10000x2, .i1⟩
  | .hbm, ⟨90, _⟩ => ⟨S4096x10000x2, .f32⟩
  | _, _ => ⟨S4096x10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_call2_v0 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_call3_v0 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_cst_4 : Ref sig .tc := ⟨.hbm, 48, rfl⟩
abbrev main_call4_v0 : Ref sig .tc := ⟨.hbm, 49, rfl⟩
abbrev main_v15 : Ref sig .tc := ⟨.hbm, 50, rfl⟩
abbrev main_cst_5 : Ref sig .tc := ⟨.hbm, 51, rfl⟩
abbrev main_v16 : Ref sig .tc := ⟨.hbm, 52, rfl⟩
abbrev main_cst_6 : Ref sig .tc := ⟨.hbm, 53, rfl⟩
abbrev main_v17 : Ref sig .tc := ⟨.hbm, 54, rfl⟩
abbrev main_call5_v0 : Ref sig .tc := ⟨.hbm, 55, rfl⟩
abbrev main_v18 : Ref sig .tc := ⟨.hbm, 56, rfl⟩
abbrev main_cst_7 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_8 : Ref sig .tc := ⟨.hbm, 62, rfl⟩
abbrev main_call6_v0 : Ref sig .tc := ⟨.hbm, 63, rfl⟩
abbrev main_call6_v1 : Ref sig .tc := ⟨.hbm, 64, rfl⟩
abbrev main_v23 : Ref sig .tc := ⟨.hbm, 65, rfl⟩
abbrev main_cst_9 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_10 : Ref sig .tc := ⟨.hbm, 78, rfl⟩
abbrev main_cst_11 : Ref sig .tc := ⟨.hbm, 79, rfl⟩
abbrev main_call7_v0 : Ref sig .tc := ⟨.hbm, 80, rfl⟩
abbrev main_call7_v1 : Ref sig .tc := ⟨.hbm, 81, rfl⟩
abbrev main_call7_v2 : Ref sig .tc := ⟨.hbm, 82, rfl⟩
abbrev main_call7_v3 : Ref sig .tc := ⟨.hbm, 83, rfl⟩
abbrev main_call7_v4 : Ref sig .tc := ⟨.hbm, 84, rfl⟩
abbrev main_v35 : Ref sig .tc := ⟨.hbm, 85, rfl⟩
abbrev main_c_12 : Ref sig .tc := ⟨.hbm, 86, rfl⟩
abbrev main_v36 : Ref sig .tc := ⟨.hbm, 87, rfl⟩
abbrev main_v37 : Ref sig .tc := ⟨.hbm, 88, rfl⟩
abbrev main_call8_v0 : Ref sig .tc := ⟨.hbm, 89, rfl⟩
abbrev main_v38 : Ref sig .tc := ⟨.hbm, 90, rfl⟩

abbrev nD : Nat := 1
abbrev τ : Topo := Topo.v7x

variable {F : FTy → Type} [FloatOps F]

class Facts₀ : Prop where
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  bcast_S4096x100x1_S4096x100x2_0_1_2 : S4096x100x1.BroadcastsInDim S4096x100x2 (![0, 1, 2] : Fin 3 → Fin S4096x100x2.rank)
  bcast_S_S4096x100x2 : S_.BroadcastsInDim S4096x100x2 (![] : Fin 0 → Fin S4096x100x2.rank)
  shapeCasts_S4096x100x2_S4096x100x2x1 : S4096x100x2.ShapeCasts S4096x100x2x1
  bcast_S_S4096x100x2x1 : S_.BroadcastsInDim S4096x100x2x1 (![] : Fin 0 → Fin S4096x100x2x1.rank)
  bcast_S1_S1x1x1x1_3 : S1.BroadcastsInDim S1x1x1x1 (![3] : Fin 1 → Fin S1x1x1x1.rank)
  bcast_S1x1x1x1_S4096x100x2x1_0_1_2_3 : S1x1x1x1.BroadcastsInDim S4096x100x2x1 (![0, 1, 2, 3] : Fin 4 → Fin S4096x100x2x1.rank)
  reducesTo_S4096x100x2x1_S4096x100x2_d3 : S4096x100x2x1.ReducesTo [3] S4096x100x2
  h_S_ : 0 < S_.numel
  slices_S4096x100x2_S4096x100x1_0_0_0 : S4096x100x2.Slices ![0, 0, 0] S4096x100x1
  shapeCasts_S4096x100x1_S4096x100 : S4096x100x1.ShapeCasts S4096x100
  slices_S4096x100x2_S4096x100x1_0_0_1 : S4096x100x2.Slices ![0, 0, 1] S4096x100x1
  reducesTo_S4096x100_S4096_d1 : S4096x100.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096_S4096x1x1_0 : S4096.BroadcastsInDim S4096x1x1 (![0] : Fin 1 → Fin S4096x1x1.rank)
  bcast_S4096x2_S4096x1x2_0_2 : S4096x2.BroadcastsInDim S4096x1x2 (![0, 2] : Fin 2 → Fin S4096x1x2.rank)
  bcast_S4096x1x2_S4096x10000x2_0_1_2 : S4096x1x2.BroadcastsInDim S4096x10000x2 (![0, 1, 2] : Fin 3 → Fin S4096x10000x2.rank)
  bcast_S4096x1x1_S4096x10000x2_0_1_2 : S4096x1x1.BroadcastsInDim S4096x10000x2 (![0, 1, 2] : Fin 3 → Fin S4096x10000x2.rank)
  bcast_S_S4096x10000x2 : S_.BroadcastsInDim S4096x10000x2 (![] : Fin 0 → Fin S4096x10000x2.rank)
  gather_S4096x10000x2_S4096x100x2x1_S4096x100x2_n_1_02_02_1_3_111_wf : GatherDims.WF S4096x10000x2 S4096x100x2x1 S4096x100x2 [] [1] [0, 2] [1] [0, 2] 3 ![1, 1, 1]

variable [Facts₀]

def gather_S4096x10000x2_S4096x100x2x1_S4096x100x2_n_1_02_02_1_3_111 : GatherDims S4096x10000x2 S4096x100x2x1 S4096x100x2 where
  offsetDims := []
  collapsedSliceDims := [1]
  operandBatchingDims := [0, 2]
  startIndicesBatchingDims := [0, 2]
  startIndexMap := [1]
  indexVectorDim := 3
  sliceSizes := ![1, 1, 1]
  wf := gather_S4096x10000x2_S4096x100x2x1_S4096x100x2_n_1_02_02_1_3_111_wf

class Facts : Prop extends Facts₀ where

variable [Facts]
-- ==== Proof.KernelAround.lean ====
/-
  The run of the program around its one launch, and what the launch leaves in the output array.

  The program is: host operations (the per-row statistics of the gathered candidates, the five per-row scalars
  stacked as the columns of a [4096, 5] array, the points flattened to [4096, 20000], the lane parity as a
  [1, 20000] row), then ONE launch over 64 grid points, then one reshape. At grid point t the body reads rows
  64 t … 64 t + 63 of the flattened points and of the scalars, and the whole parity row; it stores one
  [64, 20000] block, a pointwise expression of what it read (it also reads the output block once, a value it
  never uses). So the output block at a point is a function of the three input blocks at that point alone,
  and the run is the library's launch of a body that loads, computes and stores a covering rectangle.
  Everything here holds at any float instance.
-/
import proofs.«162652_j25099788878674_2_alg».proof.Proof.Gen.Kernel.Launch
import proofs.«162652_j25099788878674_2_alg».proof.Proof.Gen.Kernel.Skeleton
import proofs.«162652_j25099788878674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The stretches of host operations before the launch, in program order. -/
abbrev before : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- A core's buffer contents when the launch is entered: the host operations before it, applied in order. -/
abbrev V0 (c : Dev nD) : Valuation τ sig (Elt F) := StableHlo.after (List.flatten (before (F := F))) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the stretches before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh⟩) main_chain

/-- The reshape after the launch touches the launch's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's four arrays (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the launch writes the points array: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- The reshape after the launch does not write the points array either: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- Likewise the index array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the body reads -/

/-- The block of operand w at grid point t, read off the operand's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of input 0 holds the operand's block at every grid point, whether or not the block was fetched
    there: a block that is not fetched again has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 1 holds the operand's block at every grid point, whether or not the block was fetched
    there: a block that is not fetched again has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 2 holds the operand's block at every grid point, whether or not the block was fetched
    there: a block that is not fetched again has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the launch's run to the two argument arrays -/

/-- A run ending in the launch library's post leaves both argument arrays as given: neither is an array of the
    launch, and no host operation writes either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The rectangles the body reads and writes -/

/-- The whole [64, 20000] block (read of the points, write of the result). -/
abbrev rAll : Rect S64x20000 := Rect.unit (s := S64x20000) ![0, 0] S64x20000.size inb_S64x20000_S64x20000_0_0
/-- The whole [1, 20000] parity row. -/
abbrev rRow : Rect S1x20000 := Rect.unit (s := S1x20000) ![0, 0] S1x20000.size inb_S1x20000_S1x20000_0_0
/-- Column k of the [64, 5] block of scalars, k = 0 … 4. -/
abbrev rCol0 : Rect S64x5 := Rect.unit (s := S64x5) ![0, 0] S64x1.size inb_S64x5_S64x1_0_0
abbrev rCol1 : Rect S64x5 := Rect.unit (s := S64x5) ![0, 1] S64x1.size inb_S64x5_S64x1_0_1
abbrev rCol2 : Rect S64x5 := Rect.unit (s := S64x5) ![0, 2] S64x1.size inb_S64x5_S64x1_0_2
abbrev rCol3 : Rect S64x5 := Rect.unit (s := S64x5) ![0, 3] S64x1.size inb_S64x5_S64x1_0_3
abbrev rCol4 : Rect S64x5 := Rect.unit (s := S64x5) ![0, 4] S64x1.size inb_S64x5_S64x1_0_4

/-- What the body leaves in the output's staging buffer, from the three input blocks: its one store, of the body's
    pointwise expression of the points block, the parity row and the five scalar columns. -/
def outBlock (x0 : Vec F S64x20000 .f32) (x1 : Vec F S1x20000 .f32) (x2 : Vec F S64x5 .f32) : Vec F S64x20000 .f32 :=
  View.canon [⟨rAll, k0_pay1 (View.ld x0 rAll) (View.ld x1 rRow) (View.ld x2 rCol0) (View.ld x2 rCol1) (View.ld x2 rCol2) (View.ld x2 rCol3) (View.ld x2 rCol4)⟩]

/-- The one store covers the buffer. -/
theorem cover_out (p0 : Vec F S64x20000 .f32) (y : S64x20000.Idx) :
    ∃ pc ∈ ([⟨rAll, p0⟩] : List (View.Piece (Elt F) S64x20000 .f32)), y ∈ pc.1.set :=
  View.cover_of_tiled [⟨rAll, p0⟩] S64x20000.size (by rfl) y

/-! ## The body -/

set_option maxHeartbeats 4000000 in
/-- The body on whole staging buffers, the inputs' holding x0, x1, x2 and the output's anything, returns with the
    inputs' unchanged and the output's at outBlock x0 x1 x2. -/
theorem sound_kernel (c : Dev nD) (E : Set ℕ) (i : grid0.Coords) (arg1 : Memref sig .tc .vmem S64x20000 .f32) (harg1 : arg1.IsWhole) (arg2 : Memref sig .tc .vmem S1x20000 .f32) (harg2 : arg2.IsWhole) (arg3 : Memref sig .tc .vmem S64x5 .f32) (harg3 : arg3.IsWhole) (arg4 : Memref sig .tc .vmem S64x20000 .f32) (harg4 : arg4.IsWhole)
    (x0 : Vec F S64x20000 .f32) (x1 : Vec F S1x20000 .f32) (x2 : Vec F S64x5 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- On core c: the arrays as the launch finds them; after the body at grid point t each input's buffer holds its
    block and the output's holds outBlock of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a generic grid point -/

/-- What the body is called with at grid point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the launch's arrays holds
    what the launch library computes from the proof data (the output array: each block as the body left it), and every
    other unscoped buffer what the reshape after the launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Around

end
-- ==== Proof.KernelIdealAround.lean ====
/-
  The run of the program around its one launch, and what the launch leaves in the output array.

  The program is: host operations (the per-row statistics of the gathered candidates, the five per-row scalars
  stacked as the columns of a [4096, 5] array, the points flattened to [4096, 20000], the lane parity as a
  [1, 20000] row), then ONE launch over 64 grid points, then one reshape. At grid point t the body reads rows
  64 t … 64 t + 63 of the flattened points and of the scalars, and the whole parity row; it stores one
  [64, 20000] block, a pointwise expression of what it read (it also reads the output block once, a value it
  never uses). So the output block at a point is a function of the three input blocks at that point alone,
  and the run is the library's launch of a body that loads, computes and stores a covering rectangle.
  Everything here holds at any float instance.
-/
import proofs.«162652_j25099788878674_2_alg».proof.Proof.Gen.KernelIdeal.Launch
import proofs.«162652_j25099788878674_2_alg».proof.Proof.Gen.KernelIdeal.Skeleton
import proofs.«162652_j25099788878674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The stretches of host operations before the launch, in program order. -/
abbrev before : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- A core's buffer contents when the launch is entered: the host operations before it, applied in order. -/
abbrev V0 (c : Dev nD) : Valuation τ sig (Elt F) := StableHlo.after (List.flatten (before (F := F))) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the stretches before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh⟩) main_chain

/-- The reshape after the launch touches the launch's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's four arrays (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the launch writes the points array: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- The reshape after the launch does not write the points array either: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- Likewise the index array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the body reads -/

/-- The block of operand w at grid point t, read off the operand's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of input 0 holds the operand's block at every grid point, whether or not the block was fetched
    there: a block that is not fetched again has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 1 holds the operand's block at every grid point, whether or not the block was fetched
    there: a block that is not fetched again has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 2 holds the operand's block at every grid point, whether or not the block was fetched
    there: a block that is not fetched again has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the launch's run to the two argument arrays -/

/-- A run ending in the launch library's post leaves both argument arrays as given: neither is an array of the
    launch, and no host operation writes either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The rectangles the body reads and writes -/

/-- The whole [64, 20000] block (read of the points, write of the result). -/
abbrev rAll : Rect S64x20000 := Rect.unit (s := S64x20000) ![0, 0] S64x20000.size inb_S64x20000_S64x20000_0_0
/-- The whole [1, 20000] parity row. -/
abbrev rRow : Rect S1x20000 := Rect.unit (s := S1x20000) ![0, 0] S1x20000.size inb_S1x20000_S1x20000_0_0
/-- Column k of the [64, 5] block of scalars, k = 0 … 4. -/
abbrev rCol0 : Rect S64x5 := Rect.unit (s := S64x5) ![0, 0] S64x1.size inb_S64x5_S64x1_0_0
abbrev rCol1 : Rect S64x5 := Rect.unit (s := S64x5) ![0, 1] S64x1.size inb_S64x5_S64x1_0_1
abbrev rCol2 : Rect S64x5 := Rect.unit (s := S64x5) ![0, 2] S64x1.size inb_S64x5_S64x1_0_2
abbrev rCol3 : Rect S64x5 := Rect.unit (s := S64x5) ![0, 3] S64x1.size inb_S64x5_S64x1_0_3
abbrev rCol4 : Rect S64x5 := Rect.unit (s := S64x5) ![0, 4] S64x1.size inb_S64x5_S64x1_0_4

/-- What the body leaves in the output's staging buffer, from the three input blocks: its one store, of the body's
    pointwise expression of the points block, the parity row and the five scalar columns. -/
def outBlock (x0 : Vec F S64x20000 .f32) (x1 : Vec F S1x20000 .f32) (x2 : Vec F S64x5 .f32) : Vec F S64x20000 .f32 :=
  View.canon [⟨rAll, k0_pay1 (View.ld x0 rAll) (View.ld x1 rRow) (View.ld x2 rCol0) (View.ld x2 rCol1) (View.ld x2 rCol2) (View.ld x2 rCol3) (View.ld x2 rCol4)⟩]

/-- The one store covers the buffer. -/
theorem cover_out (p0 : Vec F S64x20000 .f32) (y : S64x20000.Idx) :
    ∃ pc ∈ ([⟨rAll, p0⟩] : List (View.Piece (Elt F) S64x20000 .f32)), y ∈ pc.1.set :=
  View.cover_of_tiled [⟨rAll, p0⟩] S64x20000.size (by rfl) y

/-! ## The body -/

set_option maxHeartbeats 4000000 in
/-- The body on whole staging buffers, the inputs' holding x0, x1, x2 and the output's anything, returns with the
    inputs' unchanged and the output's at outBlock x0 x1 x2. -/
theorem sound_kernel (c : Dev nD) (E : Set ℕ) (i : grid0.Coords) (arg1 : Memref sig .tc .vmem S64x20000 .f32) (harg1 : arg1.IsWhole) (arg2 : Memref sig .tc .vmem S1x20000 .f32) (harg2 : arg2.IsWhole) (arg3 : Memref sig .tc .vmem S64x5 .f32) (harg3 : arg3.IsWhole) (arg4 : Memref sig .tc .vmem S64x20000 .f32) (harg4 : arg4.IsWhole)
    (x0 : Vec F S64x20000 .f32) (x1 : Vec F S1x20000 .f32) (x2 : Vec F S64x5 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- On core c: the arrays as the launch finds them; after the body at grid point t each input's buffer holds its
    block and the output's holds outBlock of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a generic grid point -/

/-- What the body is called with at grid point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the launch's arrays holds
    what the launch library computes from the proof data (the output array: each block as the body left it), and every
    other unscoped buffer what the reshape after the launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Around

end
-- ==== Proof.ElemAlgebra.lean ====
/-
  The arithmetic of one output element, on the extended reals.

  For one row let rr be the reciprocal of the floored span, xm and ym the least gathered x and y, and let the
  row be "live" when it has a candidate. The kernel computes, from the five row scalars
      r = rr, bx = -rr·xm, by = -rr·ym, lo = 0, hi = 1          (live row)
      r = 1,  bx = 0,      by = 0,      lo = -∞, hi = +∞        (dead row)
  the value  min (max (x·r + (bx + p·(by − bx))) lo) hi  with p the lane parity (0 on x lanes, 1 on y lanes);
  the reference computes  min 1 (max 0 (rr·(x − xm)))  on x lanes of a live row, the same with ym on y lanes,
  and x itself on a dead row. For real x, rr, xm, ym these agree: on a live row bx + 0·(by − bx) = bx and
  bx + 1·(by − bx) = by, and x·rr + (−rr)·m = rr·(x − m) is distributivity in ℝ; on a dead row
  x·1 + (0 + p·(0 − 0)) = x and the clamp to [−∞, +∞] is the identity. The words of the f32 literals
  involved are evaluated here once.
-/
import Idealize.ShloMosaic.PureOps.Ideal

noncomputable section

namespace Cert.NormAlgebra

open Idealize.ShloMosaic

/-- The f32 word of +∞ is the top extended real. -/
theorem ofBits_posInf : Ideal.ofBits .f32 0x7F800000#32 = (⊤ : EReal) := by
  simp [Ideal.ofBits, Ideal.ieee]
/-- The f32 word of −∞ is the bottom extended real. -/
theorem ofBits_negInf : Ideal.ofBits .f32 0xFF800000#32 = (⊥ : EReal) := by
  simp [Ideal.ofBits, Ideal.ieee]
/-- The f32 word of 1. -/
theorem ofBits_one : Ideal.ofBits .f32 0x3F800000#32 = ((1 : ℝ) : EReal) := by
  simp [Ideal.ofBits, Ideal.ieee]
  rw [← EReal.coe_mul]
  norm_num
/-- The f32 zero word. -/
theorem ofBits_zero : Ideal.ofBits .f32 0x00000000#32 = ((0 : ℝ) : EReal) := by
  simp [Ideal.ofBits, Ideal.ieee]
/-- The floor under the span, the f32 nearest 1e-6, is a positive real. -/
theorem ofBits_floor : ∃ e : ℝ, 0 < e ∧ Ideal.ofBits .f32 0x358637BD#32 = (e : EReal) := by
  refine ⟨_, ?_, by simp [Ideal.ofBits, Ideal.ieee]; rfl⟩
  positivity

/-- One output element as the kernel computes it: from the point coordinate x, the lane parity p and the row's five
    scalars r, bx, by, lo, hi. -/
def kerElem (x p r bx by' lo hi : EReal) : EReal := min (max (x * r + (bx + p * (by' - bx))) lo) hi

/-- A dead row: the kernel's affine map and clamp leave a real x as it is, at either parity. -/
theorem dead_row (x : ℝ) (p : EReal) (hp : p = 0 ∨ p = 1) :
    min (max ((x : EReal) * ((1 : ℝ) : EReal) + (((0 : ℝ) : EReal) + p * (((0 : ℝ) : EReal) - ((0 : ℝ) : EReal)))) (-(⊤ : EReal))) (⊤ : EReal) = (x : EReal) := by
  have h0 : (((0 : ℝ) : EReal) - ((0 : ℝ) : EReal)) = 0 := by simp
  rw [h0, mul_zero]
  simp

/-- A live row, x lane (parity 0). -/
theorem live_row_x (x rr xm ym : ℝ) :
    min (max ((x : EReal) * (rr : EReal) + ((-(rr : EReal)) * (xm : EReal) + ((0 : ℝ) : EReal) * ((-(rr : EReal)) * (ym : EReal) - (-(rr : EReal)) * (xm : EReal)))) ((0 : ℝ) : EReal)) ((1 : ℝ) : EReal)
      = min ((1 : ℝ) : EReal) (max ((0 : ℝ) : EReal) ((rr : EReal) * ((x : EReal) - (xm : EReal)))) := by
  have e1 : (x : EReal) * (rr : EReal) + ((-(rr : EReal)) * (xm : EReal) + ((0 : ℝ) : EReal) * ((-(rr : EReal)) * (ym : EReal) - (-(rr : EReal)) * (xm : EReal)))
      = ((x * rr + (-rr * xm + 0 * (-rr * ym - -rr * xm)) : ℝ) : EReal) := by
    push_cast; rfl
  have e2 : (rr : EReal) * ((x : EReal) - (xm : EReal)) = ((rr * (x - xm) : ℝ) : EReal) := by push_cast; rfl
  rw [e1, e2, min_comm, max_comm]
  congr 3
  ring

/-- A live row, y lane (parity 1). -/
theorem live_row_y (x rr xm ym : ℝ) :
    min (max ((x : EReal) * (rr : EReal) + ((-(rr : EReal)) * (xm : EReal) + ((1 : ℝ) : EReal) * ((-(rr : EReal)) * (ym : EReal) - (-(rr : EReal)) * (xm : EReal)))) ((0 : ℝ) : EReal)) ((1 : ℝ) : EReal)
      = min ((1 : ℝ) : EReal) (max ((0 : ℝ) : EReal) ((rr : EReal) * ((x : EReal) - (ym : EReal)))) := by
  have e1 : (x : EReal) * (rr : EReal) + ((-(rr : EReal)) * (xm : EReal) + ((1 : ℝ) : EReal) * ((-(rr : EReal)) * (ym : EReal) - (-(rr : EReal)) * (xm : EReal)))
      = ((x * rr + (-rr * xm + 1 * (-rr * ym - -rr * xm)) : ℝ) : EReal) := by
    push_cast; rfl
  have e2 : (rr : EReal) * ((x : EReal) - (ym : EReal)) = ((rr * (x - ym) : ℝ) : EReal) := by push_cast; rfl
  rw [e1, e2, min_comm, max_comm]
  congr 3
  ring

/-- The reciprocal of a span floored by a positive real is a real: for reals a, b and e > 0,
    1 / max e (max a b) is the real 1 / max e (max a b). -/
theorem recip_real (a b e : ℝ) (he : 0 < e) :
    Ideal.div ((1 : ℝ) : EReal) (max (e : EReal) (max (a : EReal) (b : EReal))) = ((1 / max e (max a b) : ℝ) : EReal) := by
  have hm : max (e : EReal) (max (a : EReal) (b : EReal)) = ((max e (max a b) : ℝ) : EReal) := by
    rw [EReal.coe_strictMono.monotone.map_max, EReal.coe_strictMono.monotone.map_max]
  have hpos : (max e (max a b) : ℝ) ≠ 0 := (lt_of_lt_of_le he (le_max_left _ _)).ne'
  rw [hm, Ideal.div_coe hpos, ← EReal.coe_mul, one_mul]

end Cert.NormAlgebra

end
-- ==== Proof.KernelWhole.lean ====
/-
  What the launch leaves in the output array, as one function of the three operand arrays.

  Grid point t owns rows 64 t … 64 t + 63 of the [4096, 20000] output. The body's one store writes, at (p, q) of its
  block, the element computed from the points block at (p, q), the parity row at (0, q) and the five scalars of row p;
  the points block and the scalars block at point t are rows 64 t … of their arrays, and the parity row is the whole
  [1, 20000] array. So the block written back at t is the restriction to those rows of the whole-array function
      W X M S (r, q) = elem (X (r, q)) (M (0, q)) (S (r, 0)) … (S (r, 4)),
  and since the 64 blocks tile the array, the array after the launch is W of the three operand arrays.
-/
import proofs.«162652_j25099788878674_2_alg».proof.Proof.KernelIdealAround
import proofs.«162652_j25099788878674_2_alg».proof.Proof.ElemAlgebra
import Idealize.ShloMosaic.Lib.Pipeline.Value
import Idealize.ShloMosaic.Lib.ValueIdx
import Idealize.ShloMosaic.Lib.ValueLayout

noncomputable section

namespace Cert.KernelIdeal.Whole

open Cert.KernelIdeal Cert.KernelIdeal.Gen Cert.KernelIdeal.Around Idealize.ShloMosaic Idealize.ShloMosaic.TcCoe Idealize.SL.Sem
open Idealize.ShloMosaic.ValueIdx Cert.NormAlgebra
open Idealize.ShloMosaic.Pipeline (Dat)

variable (m : (ℓ : Loc nD τ sig) → Buf (Elt Ideal) ℓ) (ρ : Dev nD → PrngReg)

/-- The whole-array function: entry (r, q) from the points at (r, q), the parity at (0, q) and the scalars of row r. -/
def W (X : S4096x20000.Idx → EReal) (M : S1x20000.Idx → EReal) (S : S4096x5.Idx → EReal) (r : Fin 4096) (q : Fin 20000) : EReal :=
  kerElem (X (ix2 r q)) (M (ix2 (0 : Fin 1) q)) (S (ix2 r (0 : Fin 5))) (S (ix2 r (1 : Fin 5))) (S (ix2 r (2 : Fin 5))) (S (ix2 r (3 : Fin 5))) (S (ix2 r (4 : Fin 5)))

/-- The same as a function of the array index. -/
def Warr (X : S4096x20000.Idx → EReal) (M : S1x20000.Idx → EReal) (S : S4096x5.Idx → EReal) : S4096x20000.Idx → EReal :=
  fun i => W X M S ⟨(i 0).val, (i 0).isLt⟩ ⟨(i 1).val, (i 1).isLt⟩

theorem Warr_ix2 (X : S4096x20000.Idx → EReal) (M : S1x20000.Idx → EReal) (S : S4096x5.Idx → EReal) (r : Fin 4096) (q : Fin 20000) :
    Warr X M S (ix2 r q) = W X M S r q := rfl

/-! ## The body's stored value at an index -/

/-- A column [64, 1] repeated along the lanes reads, at (p, q), the column at (p, 0). -/
theorem lanes_of_column (v : FVec Ideal S64x1 .f32) (p : Fin 64) (q : Fin 20000) :
    broadcastTo S64x20000 v broadcasts_S64x1_S64x20000 (ix2 p q) = v (ix2 p (0 : Fin 1)) := by
  refine broadcastTo_apply v broadcasts_S64x1_S64x20000 (ix2 p q) (ix2 p (0 : Fin 1)) fun ax => ?_
  match ax with
  | ⟨0, _⟩ => show p.val = if (64 : ℕ) = 1 then 0 else p.val; rw [if_neg (by decide)]
  | ⟨1, _⟩ => show (0 : ℕ) = if (1 : ℕ) = 1 then 0 else q.val; rw [if_pos rfl]

/-- The row [1, 20000] repeated down the 64 sublanes reads, at (p, q), the row at (0, q). -/
theorem sublanes_of_row (v : FVec Ideal S1x20000 .f32) (p : Fin 64) (q : Fin 20000) :
    broadcastTo S64x20000 v broadcasts_S1x20000_S64x20000 (ix2 p q) = v (ix2 (0 : Fin 1) q) := by
  refine broadcastTo_apply v broadcasts_S1x20000_S64x20000 (ix2 p q) (ix2 (0 : Fin 1) q) fun ax => ?_
  match ax with
  | ⟨0, _⟩ => show (0 : ℕ) = if (1 : ℕ) = 1 then 0 else p.val; rw [if_pos rfl]
  | ⟨1, _⟩ => show q.val = if (20000 : ℕ) = 1 then 0 else q.val; rw [if_neg (by decide)]

/-- The body's stored value at (p, q): the element of the point, the parity and the row's five scalars. -/
theorem stored_at (v0 : FVec Ideal S64x20000 .f32) (v2 : FVec Ideal S1x20000 .f32) (v4 v6 v8 v10 v12 : FVec Ideal S64x1 .f32)
    (p : Fin 64) (q : Fin 20000) :
    k0_pay1 (F := Ideal) v0 v2 v4 v6 v8 v10 v12 (ix2 p q)
      = kerElem (v0 (ix2 p q)) (v2 (ix2 (0 : Fin 1) q)) (v4 (ix2 p (0 : Fin 1))) (v6 (ix2 p (0 : Fin 1))) (v8 (ix2 p (0 : Fin 1)))
          (v10 (ix2 p (0 : Fin 1))) (v12 (ix2 p (0 : Fin 1))) := by
  unfold k0_pay1 kerElem
  simp only [shapeCast_self]
  simp only [minimumf_apply, maximumf_apply, addf_apply, mulf_apply, lanes_of_column, sublanes_of_row, subf_apply]

/-! ## The block written back at a grid point -/

theorem hz : (![0, 0] : Fin 2 → Nat) = fun _ => 0 := funext fun a => by fin_cases a <;> rfl

/-- Column k of a [64, 5] block, read at (p, 0), is the block at (p, k). -/
theorem col_at0 (x2 : Vec Ideal S64x5 .f32) (p : Fin 64) : (View.ld x2 rCol0 : Vec Ideal S64x1 .f32) (ix2 p (0 : Fin 1)) = x2 (ix2 p (0 : Fin 5)) := by
  show x2 (rCol0.idx (ix2 p (0 : Fin 1))) = _
  refine congrArg x2 (funext fun a => Fin.ext ?_)
  match a with
  | ⟨0, _⟩ => show 0 + 1 * p.val = p.val; omega
  | ⟨1, _⟩ => show 0 + 1 * 0 = 0; rfl
theorem col_at1 (x2 : Vec Ideal S64x5 .f32) (p : Fin 64) : (View.ld x2 rCol1 : Vec Ideal S64x1 .f32) (ix2 p (0 : Fin 1)) = x2 (ix2 p (1 : Fin 5)) := by
  show x2 (rCol1.idx (ix2 p (0 : Fin 1))) = _
  refine congrArg x2 (funext fun a => Fin.ext ?_)
  match a with
  | ⟨0, _⟩ => show 0 + 1 * p.val = p.val; omega
  | ⟨1, _⟩ => show 1 + 1 * 0 = 1; rfl
theorem col_at2 (x2 : Vec Ideal S64x5 .f32) (p : Fin 64) : (View.ld x2 rCol2 : Vec Ideal S64x1 .f32) (ix2 p (0 : Fin 1)) = x2 (ix2 p (2 : Fin 5)) := by
  show x2 (rCol2.idx (ix2 p (0 : Fin 1))) = _
  refine congrArg x2 (funext fun a => Fin.ext ?_)
  match a with
  | ⟨0, _⟩ => show 0 + 1 * p.val = p.val; omega
  | ⟨1, _⟩ => show 2 + 1 * 0 = 2; rfl
theorem col_at3 (x2 : Vec Ideal S64x5 .f32) (p : Fin 64) : (View.ld x2 rCol3 : Vec Ideal S64x1 .f32) (ix2 p (0 : Fin 1)) = x2 (ix2 p (3 : Fin 5)) := by
  show x2 (rCol3.idx (ix2 p (0 : Fin 1))) = _
  refine congrArg x2 (funext fun a => Fin.ext ?_)
  match a with
  | ⟨0, _⟩ => show 0 + 1 * p.val = p.val; omega
  | ⟨1, _⟩ => show 3 + 1 * 0 = 3; rfl
theorem col_at4 (x2 : Vec Ideal S64x5 .f32) (p : Fin 64) : (View.ld x2 rCol4 : Vec Ideal S64x1 .f32) (ix2 p (0 : Fin 1)) = x2 (ix2 p (4 : Fin 5)) := by
  show x2 (rCol4.idx (ix2 p (0 : Fin 1))) = _
  refine congrArg x2 (funext fun a => Fin.ext ?_)
  match a with
  | ⟨0, _⟩ => show 0 + 1 * p.val = p.val; omega
  | ⟨1, _⟩ => show 4 + 1 * 0 = 4; rfl

/-- The output block the body leaves, at (p, q), from three input blocks that are rows 64 T … of arrays X, S and the
    whole of M: the whole-array function at row 64 T + p. -/
theorem outBlock_at (X : S4096x20000.Idx → EReal) (M : S1x20000.Idx → EReal) (S : S4096x5.Idx → EReal)
    (x0 : FVec Ideal S64x20000 .f32) (x1 : FVec Ideal S1x20000 .f32) (x2 : FVec Ideal S64x5 .f32) (T : ℕ) (hT : T < 64)
    (h0 : ∀ (p : Fin 64) (q : Fin 20000), x0 (ix2 p q) = X (ix2 ⟨T * 64 + p.val, by omega⟩ q))
    (h1 : ∀ q : Fin 20000, x1 (ix2 (0 : Fin 1) q) = M (ix2 (0 : Fin 1) q))
    (h2 : ∀ (p : Fin 64) (k : Fin 5), x2 (ix2 p k) = S (ix2 ⟨T * 64 + p.val, by omega⟩ k))
    (p : Fin 64) (q : Fin 20000) :
    outBlock (F := Ideal) x0 x1 x2 (ix2 p q) = W X M S ⟨T * 64 + p.val, by omega⟩ q := by
  unfold outBlock
  rw [View.canon_unit_zero hz]
  simp only [View.ld_unit_zero (S := S64x20000) hz, View.ld_unit_zero (S := S1x20000) hz]
  rw [stored_at, col_at0, col_at1, col_at2, col_at3, col_at4, h0, h1, h2, h2, h2, h2, h2]
  rfl

/-- The printed index maps over the grid: the points, the scalars and the output move together down the rows, one block
    of 64 rows per grid point; the parity row stays. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole-array function of the operand arrays as the launch finds them. -/
theorem flushed_eq (c : Dev nD) (t : Fin cfg0.N) :
    (dats m 0 c).flushed 3 t = ((cfg0.win 3).blk t).view.read (Elt Ideal) (Warr (V m c main_v43) (V m c main_v47) (V m c main_v42)) := by
  show (cfg0.win 3).cut (grid0.coords t) ((dats m 0 c).after 3 t) = _
  rw [after0_3]
  obtain ⟨e30, e31, e00, e01, e10, e11, e20, e21⟩ := idx_facts t
  have hN : t.val < 64 := by have := t.isLt; have hN : cfg0.N = 64 := N_0; omega
  funext j
  have hj0 : (j 0).val < 64 := (j 0).isLt
  have hj1 : (j 1).val < 20000 := (j 1).isLt
  have hj : j = ix2 (⟨(j 0).val, hj0⟩ : Fin 64) (⟨(j 1).val, hj1⟩ : Fin 20000) := by
    funext a; match a with | ⟨0, _⟩ => rfl | ⟨1, _⟩ => rfl
  show outBlock (iblk m c 0 t) (iblk m c 1 t) (iblk m c 2 t) j = Warr (V m c main_v43) (V m c main_v47) (V m c main_v42) (((cfg0.win 3).blk t).view.emb j)
  have hemb : ((cfg0.win 3).blk t).view.emb j = ix2 (⟨t.val * 64 + (j 0).val, by omega⟩ : Fin 4096) (⟨(j 1).val, hj1⟩ : Fin 20000) := by
    funext a; apply Fin.ext
    match a with
    | ⟨0, _⟩ => show win0_3.index t (0 : Fin 2) * 64 + 1 * (j 0).val = t.val * 64 + (j 0).val; omega
    | ⟨1, _⟩ => show win0_3.index t (1 : Fin 2) * 20000 + 1 * (j 1).val = (j 1).val; omega
  rw [hemb, Warr_ix2]
  refine (congrArg (outBlock (iblk m c 0 t) (iblk m c 1 t) (iblk m c 2 t)) hj).trans ?_
  refine outBlock_at (V m c main_v43) (V m c main_v47) (V m c main_v42) _ _ _ t.val hN ?_ ?_ ?_ ⟨(j 0).val, hj0⟩ ⟨(j 1).val, hj1⟩
  · intro p q
    show V m c main_v43 (((cfg0.win 0).blk t).view.emb (ix2 p q)) = _
    refine congrArg _ (funext fun a => Fin.ext ?_)
    match a with
    | ⟨0, _⟩ => show win0_0.index t (0 : Fin 2) * 64 + 1 * p.val = t.val * 64 + p.val; omega
    | ⟨1, _⟩ => show win0_0.index t (1 : Fin 2) * 20000 + 1 * q.val = q.val; omega
  · intro q
    show V m c main_v47 (((cfg0.win 1).blk t).view.emb (ix2 (0 : Fin 1) q)) = _
    refine congrArg _ (funext fun a => Fin.ext ?_)
    match a with
    | ⟨0, _⟩ => show win0_1.index t (0 : Fin 2) * 1 + 1 * 0 = 0; omega
    | ⟨1, _⟩ => show win0_1.index t (1 : Fin 2) * 20000 + 1 * q.val = q.val; omega
  · intro p k
    show V m c main_v42 (((cfg0.win 2).blk t).view.emb (ix2 p k)) = _
    refine congrArg _ (funext fun a => Fin.ext ?_)
    match a with
    | ⟨0, _⟩ => show win0_2.index t (0 : Fin 2) * 64 + 1 * p.val = t.val * 64 + p.val; omega
    | ⟨1, _⟩ => show win0_2.index t (1 : Fin 2) * 5 + 1 * k.val = k.val; omega

/-- An index of the output array is in grid point t's block iff each coordinate is in the block's range. -/
theorem mem_blk (t : Fin cfg0.N) (i : S4096x20000.Idx) :
    i ∈ ((cfg0.win 3).blk t).view.set ↔ ∀ a : Fin 2, win0_3.index t a * S64x20000.size a ≤ (i a).val ∧ (i a).val < win0_3.index t a * S64x20000.size a + S64x20000.size a := by
  show i ∈ ((View.whole main_v48).slice (win0_3.rect t)).set ↔ _
  rw [View.set_slice_whole, Rect.mem_set_unit]
  exact Iff.rfl

/-- Every row is in the block of the grid point its number divided by 64 names. -/
theorem cover (i : S4096x20000.Idx) : ∃ t : Fin cfg0.N, (cfg0.win 3).flush t = true ∧ i ∈ ((cfg0.win 3).blk t).view.set := by
  have hi0 : (i 0).val < 4096 := (i 0).isLt
  have hi1 : (i 1).val < 20000 := (i 1).isLt
  have hN : cfg0.N = 64 := N_0
  refine ⟨⟨(i 0).val / 64, by omega⟩, flush0_3 _, ?_⟩
  rw [mem_blk]
  obtain ⟨e30, e31, -⟩ := idx_facts ⟨(i 0).val / 64, by omega⟩
  intro a
  match a with
  | ⟨0, _⟩ => show win0_3.index _ (0 : Fin 2) * 64 ≤ (i 0).val ∧ (i 0).val < win0_3.index _ (0 : Fin 2) * 64 + 64; rw [e30]; show (i 0).val / 64 * 64 ≤ (i 0).val ∧ (i 0).val < (i 0).val / 64 * 64 + 64; omega
  | ⟨1, _⟩ => show win0_3.index _ (1 : Fin 2) * 20000 ≤ (i 1).val ∧ (i 1).val < win0_3.index _ (1 : Fin 2) * 20000 + 20000; rw [e31]; omega

/-- The output array after the launch is the whole-array function of the operand arrays as the launch finds them. -/
theorem final (c : Dev nD) : (dats m 0 c).arrAt 3 cfg0.N = Warr (V m c main_v43) (V m c main_v47) (V m c main_v42) :=
  (dats m 0 c).arrAt_eq_of_cover 3 (Warr (V m c main_v43) (V m c main_v47) (V m c main_v42)) (fun t _ => flushed_eq m c t) cover

end Cert.KernelIdeal.Whole

end
-- ==== Proof.LaneParity.lean ====
/-
  The lane parity row.

  The program builds, on the host, the row of 20000 floats whose entry q is q mod 2: an iota, jnp.remainder by 2 (the
  lowered form: the C remainder, then a correction by the divisor when the remainder is non-zero and its sign differs
  from the divisor's, after a guard that replaces a zero divisor by one), a conversion to float and a cast to [1, 20000].
  For 0 ≤ q < 20000 the C remainder of q by 2 is q mod 2, non-negative like the divisor, so no correction applies; the
  fact is decided over the 20000 lanes. Entry (0, q) of the row is therefore the real number q mod 2.
-/
import proofs.«162652_j25099788878674_2_alg».proof.Proof.Gen.KernelIdeal
import Idealize.ShloMosaic.PureOps.Ideal
import Idealize.ShloMosaic.Lib.Decide
import Idealize.ShloMosaic.Lib.Pipeline.Value
import Idealize.ShloMosaic.Lib.ValueIdx
import Idealize.ShloMosaic.Lib.ValueLayout

noncomputable section

namespace Cert.KernelIdeal.Parity

open Cert.KernelIdeal Cert.KernelIdeal.Gen Idealize.ShloMosaic Idealize.ShloMosaic.ValueIdx

/-- The divisor after the guard against zero: 2. -/
def divisor : IVec S_ 32 :=
  select (cmpi .eq (id (constantI S_ 32 2#32)) (constantI S_ 32 0#32)) (constantI S_ 32 1#32) (id (constantI S_ 32 2#32))

/-- The C remainder of the lane number by the divisor. -/
def crem : IVec S20000 32 := Host.remsi (iotaInDim S20000 32 0) (broadcastInDim S20000 ![] bcast_S_S20000 divisor)

/-- The remainder with the sign of the divisor, as 32-bit words. -/
def parityWords : IVec S20000 32 :=
  select
    (andi
      (cmpi .ne (cmpi .slt crem (broadcastInDim S20000 ![] bcast_S_S20000 (constantI S_ 32 0#32)))
        (broadcastInDim S20000 ![] bcast_S_S20000 (cmpi .slt divisor (constantI S_ 32 0#32))))
      (cmpi .ne crem (broadcastInDim S20000 ![] bcast_S_S20000 (constantI S_ 32 0#32))))
    (addi crem (broadcastInDim S20000 ![] bcast_S_S20000 divisor))
    crem

/-- The parity row: the words as floats, cast to [1, 20000]. -/
def parityRow : FVec Ideal S1x20000 .f32 :=
  shapeCast S1x20000 (sitofp (F := Ideal) .f32 parityWords) shapeCasts_S20000_S1x20000

/-- The same computation on one word. -/
def wordOf (w : BitVec 32) : BitVec 32 :=
  Scalar.select
    (IntOp.andi
      (IntOp.cmpi .ne (IntOp.cmpi .slt (IntOp.remsi .host w 2#32) 0#32) (IntOp.cmpi .slt (2#32 : BitVec 32) 0#32))
      (IntOp.cmpi .ne (IntOp.remsi .host w 2#32) 0#32))
    (IntOp.addi (IntOp.remsi .host w 2#32) 2#32)
    (IntOp.remsi .host w 2#32)

theorem divisor_apply (j : S_.Idx) : divisor j = 2#32 := by
  show Scalar.select (IntOp.cmpi .eq (2#32 : BitVec 32) 0#32) (1#32 : BitVec 32) 2#32 = 2#32
  decide

theorem parityWords_apply (q : Fin 20000) : parityWords (ix1 q) = wordOf (BitVec.ofNat 32 q.val) := by
  unfold parityWords wordOf crem
  rw [show divisor = constantI S_ 32 2#32 from funext divisor_apply]
  rfl

/-- Decided over the 20000 lanes: the word of lane q is q mod 2. -/
theorem wordOf_lane : ∀ q : Fin 20000, wordOf (BitVec.ofNat 32 q.val) = BitVec.ofNat 32 (q.val % 2) := by
  unfold wordOf
  decide +kernel

/-- Entry (0, q) of the parity row is the real number q mod 2. -/
theorem parityRow_apply (q : Fin 20000) : parityRow (ix2 (0 : Fin 1) q) = (((q.val % 2 : ℕ) : ℝ) : EReal) := by
  unfold parityRow
  rw [shapeCast_a_1a_apply]
  show (((parityWords (ix1 q)).toInt : ℝ) : EReal) = _
  rw [parityWords_apply, wordOf_lane]
  rcases Nat.mod_two_eq_zero_or_one q.val with h | h <;> rw [h] <;> norm_num

/-- So it is 0 on even lanes and 1 on odd lanes. -/
theorem parityRow_even (n : ℕ) (h : 2 * n < 20000) : parityRow (ix2 (0 : Fin 1) ⟨2 * n, h⟩) = ((0 : ℝ) : EReal) := by
  rw [parityRow_apply]; show (((2 * n % 2 : ℕ) : ℝ) : EReal) = _; rw [Nat.mul_mod_right]; norm_num
theorem parityRow_odd (n : ℕ) (h : 2 * n + 1 < 20000) : parityRow (ix2 (0 : Fin 1) ⟨2 * n + 1, h⟩) = ((1 : ℝ) : EReal) := by
  rw [parityRow_apply]; show (((((2 * n + 1) % 2 : ℕ)) : ℝ) : EReal) = _
  rw [show (2 * n + 1) % 2 = 1 by omega]; norm_num

end Cert.KernelIdeal.Parity

end
-- ==== Proof.KernelHostDefs.lean ====
/-
  What the three operand arrays of the launch hold when it is entered.

  The host operations before the launch compute, row by row, the "any candidate" bit, the least gathered x and y and the
  reciprocal rr of the floored span (the same operations as the reference's, stage for stage), then the five scalars
      r = live ? rr : 1,  bx = live ? (−rr)·xmin : 0,  by = live ? (−rr)·ymin : 0,  lo = live ? 0 : −(+∞),  hi = live ? 1 : +∞,
  each viewed as a column [4096, 1] and the five columns joined into the [4096, 5] operand; the points array cast to
  [4096, 20000]; and the lane parity row. Folding the host operations in order gives these three terms at the operands'
  buffers; the five columns are then read at an index.
-/
import proofs.«162652_j25099788878674_2_alg».proof.Proof.KernelIdealAround
import proofs.«162652_j25099788878674_2_alg».proof.Proof.KernelRead
import proofs.«162652_j25099788878674_2_alg».proof.Proof.LaneParity
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

/-! ## The five row scalars and the operand they are joined into -/

section Defs
variable (x0 : (⟨S4096x10000x2, .f32⟩ : BufTy).Contents (Elt F)) (x1 : (⟨S4096x100, .i32⟩ : BufTy).Contents (Elt F))

/-- The "any candidate" bit of each row. -/
def live : (⟨S4096, .i1⟩ : BufTy).Contents (Elt F) :=
  Host.reduce IntOp.ori (val_main_v1 (F := F) x1) (constantI S_ 1 0#1) reducesTo_S4096x100_S4096_d1 h_S_
def rowR : (⟨S4096, .f32⟩ : BufTy).Contents (Elt F) :=
  select (live (F := F) x1) (val_main_v25 (F := F) x0 x1) (broadcastInDim S4096 ![] bcast_S_S4096 (constant S_ .f32 0x3F800000#32))
def rowBx : (⟨S4096, .f32⟩ : BufTy).Contents (Elt F) :=
  select (live (F := F) x1) (mulf (Host.negf (val_main_v25 (F := F) x0 x1)) (val_main_v11 (F := F) x0 x1)) (broadcastInDim S4096 ![] bcast_S_S4096 (constant S_ .f32 0x00000000#32))
def rowBy : (⟨S4096, .f32⟩ : BufTy).Contents (Elt F) :=
  select (live (F := F) x1) (mulf (Host.negf (val_main_v25 (F := F) x0 x1)) (val_main_v16 (F := F) x0 x1)) (broadcastInDim S4096 ![] bcast_S_S4096 (constant S_ .f32 0x00000000#32))
def rowLo : (⟨S4096, .f32⟩ : BufTy).Contents (Elt F) :=
  select (live (F := F) x1) (broadcastInDim S4096 ![] bcast_S_S4096 (constant S_ .f32 0x00000000#32)) (broadcastInDim S4096 ![] bcast_S_S4096 (Host.negf (constant S_ .f32 0x7F800000#32)))
def rowHi : (⟨S4096, .f32⟩ : BufTy).Contents (Elt F) :=
  select (live (F := F) x1) (broadcastInDim S4096 ![] bcast_S_S4096 (constant S_ .f32 0x3F800000#32)) (broadcastInDim S4096 ![] bcast_S_S4096 (constant S_ .f32 0x7F800000#32))
/-- A per-row vector as a column. -/
def col (v : (⟨S4096, .f32⟩ : BufTy).Contents (Elt F)) : (⟨S4096x1, .f32⟩ : BufTy).Contents (Elt F) :=
  broadcastInDim S4096x1 ![0] bcast_S4096_S4096x1_0 v
/-- The [4096, 5] operand: the five columns joined. -/
def scalars : (⟨S4096x5, .f32⟩ : BufTy).Contents (Elt F) :=
  concatenate S4096x5 1 [⟨S4096x1, col (rowR (F := F) x0 x1)⟩, ⟨S4096x1, col (rowBx (F := F) x0 x1)⟩, ⟨S4096x1, col (rowBy (F := F) x0 x1)⟩, ⟨S4096x1, col (rowLo (F := F) x1)⟩, ⟨S4096x1, col (rowHi (F := F) x1)⟩]
    concatenates_S4096x1_S4096x1_S4096x1_S4096x1_S4096x1_S4096x5_d1
end Defs

/-! ## The five columns at an index -/

section At
variable (x0 : (⟨S4096x10000x2, .f32⟩ : BufTy).Contents (Elt Ideal)) (x1 : (⟨S4096x100, .i32⟩ : BufTy).Contents (Elt Ideal))

/-- A per-row vector viewed as a column reads, at (r, 0), the vector at r. -/
theorem col_apply (v : (⟨S4096, .f32⟩ : BufTy).Contents (Elt Ideal)) (r : Fin 4096) :
    col (F := Ideal) v (ix2 r (0 : Fin 1)) = v (ix1 r) := by
  unfold col
  refine broadcastInDim_apply _ bcast_S4096_S4096x1_0 v (ix2 r (0 : Fin 1)) (ix1 r) fun a => ?_
  match a with
  | ⟨0, _⟩ => show r.val = if (4096 : ℕ) = 1 then 0 else r.val; rw [if_neg (by decide)]

/-- Five columns joined read, at (r, k), column k at (r, 0). -/
theorem joined_at0 (c0 c1 c2 c3 c4 : (⟨S4096x1, .f32⟩ : BufTy).Contents (Elt Ideal)) (r : Fin 4096) :
    concatenate S4096x5 1 [⟨S4096x1, c0⟩, ⟨S4096x1, c1⟩, ⟨S4096x1, c2⟩, ⟨S4096x1, c3⟩, ⟨S4096x1, c4⟩]
        concatenates_S4096x1_S4096x1_S4096x1_S4096x1_S4096x1_S4096x5_d1 (ix2 r (0 : Fin 5))
      = c0 (ix2 r (0 : Fin 1)) :=
  concatenate_apply_piece (t := S4096x5) (1 : Fin 2) [⟨S4096x1, c0⟩, ⟨S4096x1, c1⟩, ⟨S4096x1, c2⟩, ⟨S4096x1, c3⟩, ⟨S4096x1, c4⟩] concatenates_S4096x1_S4096x1_S4096x1_S4096x1_S4096x1_S4096x5_d1 (ix2 r (0 : Fin 5)) 0 (by simp) S4096x1 c0 rfl rfl 0 rfl (ix2 r (0 : Fin 1))
    (fun bb hbb => match bb, hbb with | ⟨0, _⟩, _ => rfl | ⟨1, _⟩, hbb => absurd rfl hbb) rfl
theorem joined_at1 (c0 c1 c2 c3 c4 : (⟨S4096x1, .f32⟩ : BufTy).Contents (Elt Ideal)) (r : Fin 4096) :
    concatenate S4096x5 1 [⟨S4096x1, c0⟩, ⟨S4096x1, c1⟩, ⟨S4096x1, c2⟩, ⟨S4096x1, c3⟩, ⟨S4096x1, c4⟩]
        concatenates_S4096x1_S4096x1_S4096x1_S4096x1_S4096x1_S4096x5_d1 (ix2 r (1 : Fin 5))
      = c1 (ix2 r (0 : Fin 1)) :=
  concatenate_apply_piece (t := S4096x5) (1 : Fin 2) [⟨S4096x1, c0⟩, ⟨S4096x1, c1⟩, ⟨S4096x1, c2⟩, ⟨S4096x1, c3⟩, ⟨S4096x1, c4⟩] concatenates_S4096x1_S4096x1_S4096x1_S4096x1_S4096x1_S4096x5_d1 (ix2 r (1 : Fin 5)) 1 (by simp) S4096x1 c1 rfl rfl 1 rfl (ix2 r (0 : Fin 1))
    (fun bb hbb => match bb, hbb with | ⟨0, _⟩, _ => rfl | ⟨1, _⟩, hbb => absurd rfl hbb) rfl
theorem joined_at2 (c0 c1 c2 c3 c4 : (⟨S4096x1, .f32⟩ : BufTy).Contents (Elt Ideal)) (r : Fin 4096) :
    concatenate S4096x5 1 [⟨S4096x1, c0⟩, ⟨S4096x1, c1⟩, ⟨S4096x1, c2⟩, ⟨S4096x1, c3⟩, ⟨S4096x1, c4⟩]
        concatenates_S4096x1_S4096x1_S4096x1_S4096x1_S4096x1_S4096x5_d1 (ix2 r (2 : Fin 5))
      = c2 (ix2 r (0 : Fin 1)) :=
  concatenate_apply_piece (t := S4096x5) (1 : Fin 2) [⟨S4096x1, c0⟩, ⟨S4096x1, c1⟩, ⟨S4096x1, c2⟩, ⟨S4096x1, c3⟩, ⟨S4096x1, c4⟩] concatenates_S4096x1_S4096x1_S4096x1_S4096x1_S4096x1_S4096x5_d1 (ix2 r (2 : Fin 5)) 2 (by simp) S4096x1 c2 rfl rfl 2 rfl (ix2 r (0 : Fin 1))
    (fun bb hbb => match bb, hbb with | ⟨0, _⟩, _ => rfl | ⟨1, _⟩, hbb => absurd rfl hbb) rfl
theorem joined_at3 (c0 c1 c2 c3 c4 : (⟨S4096x1, .f32⟩ : BufTy).Contents (Elt Ideal)) (r : Fin 4096) :
    concatenate S4096x5 1 [⟨S4096x1, c0⟩, ⟨S4096x1, c1⟩, ⟨S4096x1, c2⟩, ⟨S4096x1, c3⟩, ⟨S4096x1, c4⟩]
        concatenates_S4096x1_S4096x1_S4096x1_S4096x1_S4096x1_S4096x5_d1 (ix2 r (3 : Fin 5))
      = c3 (ix2 r (0 : Fin 1)) :=
  concatenate_apply_piece (t := S4096x5) (1 : Fin 2) [⟨S4096x1, c0⟩, ⟨S4096x1, c1⟩, ⟨S4096x1, c2⟩, ⟨S4096x1, c3⟩, ⟨S4096x1, c4⟩] concatenates_S4096x1_S4096x1_S4096x1_S4096x1_S4096x1_S4096x5_d1 (ix2 r (3 : Fin 5)) 3 (by simp) S4096x1 c3 rfl rfl 3 rfl (ix2 r (0 : Fin 1))
    (fun bb hbb => match bb, hbb with | ⟨0, _⟩, _ => rfl | ⟨1, _⟩, hbb => absurd rfl hbb) rfl
theorem joined_at4 (c0 c1 c2 c3 c4 : (⟨S4096x1, .f32⟩ : BufTy).Contents (Elt Ideal)) (r : Fin 4096) :
    concatenate S4096x5 1 [⟨S4096x1, c0⟩, ⟨S4096x1, c1⟩, ⟨S4096x1, c2⟩, ⟨S4096x1, c3⟩, ⟨S4096x1, c4⟩]
        concatenates_S4096x1_S4096x1_S4096x1_S4096x1_S4096x1_S4096x5_d1 (ix2 r (4 : Fin 5))
      = c4 (ix2 r (0 : Fin 1)) :=
  concatenate_apply_piece (t := S4096x5) (1 : Fin 2) [⟨S4096x1, c0⟩, ⟨S4096x1, c1⟩, ⟨S4096x1, c2⟩, ⟨S4096x1, c3⟩, ⟨S4096x1, c4⟩] concatenates_S4096x1_S4096x1_S4096x1_S4096x1_S4096x1_S4096x5_d1 (ix2 r (4 : Fin 5)) 4 (by simp) S4096x1 c4 rfl rfl 4 rfl (ix2 r (0 : Fin 1))
    (fun bb hbb => match bb, hbb with | ⟨0, _⟩, _ => rfl | ⟨1, _⟩, hbb => absurd rfl hbb) rfl

theorem scalars_0 (r : Fin 4096) : scalars (F := Ideal) x0 x1 (ix2 r (0 : Fin 5))
    = Scalar.select (live (F := Ideal) x1 (ix1 r)) (val_main_v25 (F := Ideal) x0 x1 (ix1 r)) (Ideal.ofBits .f32 0x3F800000#32) := by
  unfold scalars; rw [joined_at0, col_apply]; rfl
theorem scalars_1 (r : Fin 4096) : scalars (F := Ideal) x0 x1 (ix2 r (1 : Fin 5))
    = Scalar.select (live (F := Ideal) x1 (ix1 r)) (-(val_main_v25 (F := Ideal) x0 x1 (ix1 r)) * val_main_v11 (F := Ideal) x0 x1 (ix1 r)) (Ideal.ofBits .f32 0x00000000#32) := by
  unfold scalars; rw [joined_at1, col_apply]; rfl
theorem scalars_2 (r : Fin 4096) : scalars (F := Ideal) x0 x1 (ix2 r (2 : Fin 5))
    = Scalar.select (live (F := Ideal) x1 (ix1 r)) (-(val_main_v25 (F := Ideal) x0 x1 (ix1 r)) * val_main_v16 (F := Ideal) x0 x1 (ix1 r)) (Ideal.ofBits .f32 0x00000000#32) := by
  unfold scalars; rw [joined_at2, col_apply]; rfl
theorem scalars_3 (r : Fin 4096) : scalars (F := Ideal) x0 x1 (ix2 r (3 : Fin 5))
    = Scalar.select (live (F := Ideal) x1 (ix1 r)) (Ideal.ofBits .f32 0x00000000#32) (-(Ideal.ofBits .f32 0x7F800000#32)) := by
  unfold scalars; rw [joined_at3, col_apply]; rfl
theorem scalars_4 (r : Fin 4096) : scalars (F := Ideal) x0 x1 (ix2 r (4 : Fin 5))
    = Scalar.select (live (F := Ideal) x1 (ix1 r)) (Ideal.ofBits .f32 0x3F800000#32) (Ideal.ofBits .f32 0x7F800000#32) := by
  unfold scalars; rw [joined_at4, col_apply]; rfl

end At

/-! ## The fold of the host operations at the three operand buffers -/

theorem cast_call1_v5 (a b c d e f he hn) (V : Valuation τ sig (Elt F)) :
    (TRef.reshape (τ := τ) (Val := Elt F) (TRef.of (T := ⟨S4096x100x2, .i32⟩) main_call1_v4 a b c) (TRef.of (T := ⟨S4096x100x2x1, .i32⟩) main_call1_v5 d e f) he hn).result V (no_index (Proc.devRef .tc main_call1_v5))
      = shapeCast S4096x100x2x1 (V (Proc.devRef .tc main_call1_v4)) shapeCasts_S4096x100x2_S4096x100x2x1 := reshape_result _ _ _ _ _ _ V
theorem cast_v7 (he hn hx hy) (V : Valuation τ sig (Elt F)) :
    (reshape (τ := τ) (Val := Elt F) main_v6 main_v7 he hn hx hy).result V (no_index (Proc.devRef .tc main_v7))
      = shapeCast S4096x100 (V (Proc.devRef .tc main_v6)) shapeCasts_S4096x100x1_S4096x100 := reshape_result _ _ he hn hx hy V
theorem cast_v9 (he hn hx hy) (V : Valuation τ sig (Elt F)) :
    (reshape (τ := τ) (Val := Elt F) main_v8 main_v9 he hn hx hy).result V (no_index (Proc.devRef .tc main_v9))
      = shapeCast S4096x100 (V (Proc.devRef .tc main_v8)) shapeCasts_S4096x100x1_S4096x100 := reshape_result _ _ he hn hx hy V
theorem cast_v43 (he hn hx hy) (V : Valuation τ sig (Elt F)) :
    (reshape (τ := τ) (Val := Elt F) main_arg0 main_v43 he hn hx hy).result V (no_index (Proc.devRef .tc main_v43))
      = shapeCast S4096x20000 (V (Proc.devRef .tc main_arg0)) shapeCasts_S4096x10000x2_S4096x20000 := reshape_result _ _ he hn hx hy V
theorem cast_v47 (he hn hx hy) (V : Valuation τ sig (Elt F)) :
    (reshape (τ := τ) (Val := Elt F) main_v46 main_v47 he hn hx hy).result V (no_index (Proc.devRef .tc main_v47))
      = shapeCast S1x20000 (V (Proc.devRef .tc main_v46)) shapeCasts_S20000_S1x20000 := reshape_result _ _ he hn hx hy V

/-- Five columns joined, as a function of the columns. -/
def join5 (a b c d e : (⟨S4096x1, .f32⟩ : BufTy).Contents (Elt F)) : (⟨S4096x5, .f32⟩ : BufTy).Contents (Elt F) :=
  concatenate S4096x5 1 [⟨S4096x1, a⟩, ⟨S4096x1, b⟩, ⟨S4096x1, c⟩, ⟨S4096x1, d⟩, ⟨S4096x1, e⟩] concatenates_S4096x1_S4096x1_S4096x1_S4096x1_S4096x1_S4096x5_d1
theorem join_v42 (hxs hy) :
    nary (τ := τ) (Val := Elt F) ![main_v37, main_v38, main_v39, main_v40, main_v41] main_v42
        (fun u => concatenate S4096x5 1 [⟨S4096x1, u 0⟩, ⟨S4096x1, u 1⟩, ⟨S4096x1, u 2⟩, ⟨S4096x1, u 3⟩, ⟨S4096x1, u 4⟩] concatenates_S4096x1_S4096x1_S4096x1_S4096x1_S4096x1_S4096x5_d1) hxs hy
      = nary (τ := τ) (Val := Elt F) ![main_v37, main_v38, main_v39, main_v40, main_v41] main_v42
        (fun u => join5 (F := F) (u 0) (u 1) (u 2) (u 3) (u 4)) hxs hy := rfl

/-- The five column buffers, by position. -/
theorem col_ref0 : (![main_v37, main_v38, main_v39, main_v40, main_v41] : Fin 5 → Ref sig .tc) 0 = main_v37 := rfl
theorem col_ref1 : (![main_v37, main_v38, main_v39, main_v40, main_v41] : Fin 5 → Ref sig .tc) 1 = main_v38 := rfl
theorem col_ref2 : (![main_v37, main_v38, main_v39, main_v40, main_v41] : Fin 5 → Ref sig .tc) 2 = main_v39 := rfl
theorem col_ref3 : (![main_v37, main_v38, main_v39, main_v40, main_v41] : Fin 5 → Ref sig .tc) 3 = main_v40 := rfl
theorem col_ref4 : (![main_v37, main_v38, main_v39, main_v40, main_v41] : Fin 5 → Ref sig .tc) 4 = main_v41 := rfl

/-- Folding a list of operations that is two lists joined is folding the first, then the second. -/
theorem after_append (l1 l2 : List (HloOp τ sig (Elt F))) (V : Valuation τ sig (Elt F)) :
    after (l1 ++ l2) V = after l2 (after l1 V) := by
  induction l1 generalizing V with
  | nil => rfl
  | cons op l ih => exact ih _

/-! ## The four stretches of the host operations before the launch -/

/-- The validity mask and the gather indices. -/
abbrev stA1 : List (HloOp τ sig (Elt F)) := List.flatten [hostOps0, hostOps0_1, hostOps0_2]
/-- The gather of the candidates. -/
abbrev stA2 : List (HloOp τ sig (Elt F)) := List.flatten [hostOps0_3]
/-- Through the floored span. -/
abbrev stB : List (HloOp τ sig (Elt F)) := List.flatten [hostOps0_4, hostOps0_5, hostOps0_6, hostOps0_7, hostOps0_8, hostOps0_9, hostOps0_10, hostOps0_11, hostOps0_12, hostOps0_13]
/-- The reciprocal, the "any candidate" bit, the five scalars joined, the points cast, and the lane numbers. -/
abbrev stD : List (HloOp τ sig (Elt F)) := List.flatten [hostOps0_14, hostOps0_15, hostOps0_16, hostOps0_17, hostOps0_18, hostOps0_19, hostOps0_20, hostOps0_21, hostOps0_22, hostOps0_23, hostOps0_24]
/-- The lane parity row. -/
abbrev stE : List (HloOp τ sig (Elt F)) := List.flatten [hostOps0_25, hostOps0_26]

theorem before_split : List.flatten (before (F := F)) = stA1 ++ (stA2 ++ (stB ++ (stD ++ stE))) := by
  simp only [before, stA1, stA2, stB, stD, stE, List.flatten_cons, List.flatten_nil, List.append_nil, List.append_assoc]

end Cert.KernelIdeal.HostSide

end
-- ==== Proof.RefAt.lean ====
/-
  The reference's result at an index.

  At (b, n, j) the reference selects, by the row's "any candidate" bit, between the clamped normalised coordinate
  min 1 (max 0 (rr_b · (x − m))) — m the row's least gathered x when j = 0 and least gathered y when j = 1, read off
  the two-column array the reference stacks them into — and the point coordinate x itself.
-/
import proofs.«162652_j25099788878674_2_alg».proof.Proof.RefReadP
import Idealize.ShloMosaic.PureOps.Ideal
import Idealize.ShloMosaic.Lib.Pipeline.Value
import Idealize.ShloMosaic.Lib.ValueIdx

noncomputable section

namespace Cert.ReferenceIdeal.At

open Cert.ReferenceIdeal Cert.ReferenceIdeal.Gen Cert.ReferenceIdeal.ReadP Idealize.ShloMosaic Idealize.ShloMosaic.ValueIdx

variable (x0 : (⟨S4096x10000x2, .f32⟩ : BufTy).Contents (Elt Ideal)) (x1 : (⟨S4096x100, .i32⟩ : BufTy).Contents (Elt Ideal))

/-- Column 0 of the stacked minima is the least x. -/
theorem mins_x (b : Fin 4096) : val_main_v28 (F := Ideal) x0 x1 (ix2 b (0 : Fin 2)) = val_main_v11 (F := Ideal) x0 x1 (ix1 b) := by
  unfold val_main_v28
  rw [concatenate_pair_apply_left (t := S4096x2) (s₁ := S4096x1) (s₂ := S4096x1) (1 : Fin 2) (val_main_v26 (F := Ideal) x0 x1) (val_main_v27 (F := Ideal) x0 x1) concatenates_S4096x1_S4096x1_S4096x2_d1 (ix2 b (0 : Fin 2)) rfl (ix2 b (0 : Fin 1))
    (fun bb => match bb with | ⟨0, _⟩ => rfl | ⟨1, _⟩ => rfl)]
  rw [val_main_v26_apply]
  exact congrArg _ (funext fun a => match a with | ⟨0, _⟩ => rfl)

/-- Column 1 is the least y. -/
theorem mins_y (b : Fin 4096) : val_main_v28 (F := Ideal) x0 x1 (ix2 b (1 : Fin 2)) = val_main_v16 (F := Ideal) x0 x1 (ix1 b) := by
  unfold val_main_v28
  rw [concatenate_pair_apply_right (t := S4096x2) (s₁ := S4096x1) (s₂ := S4096x1) (1 : Fin 2) (val_main_v26 (F := Ideal) x0 x1) (val_main_v27 (F := Ideal) x0 x1) concatenates_S4096x1_S4096x1_S4096x2_d1 (ix2 b (1 : Fin 2)) rfl rfl (ix2 b (0 : Fin 1))
    (fun bb hbb => match bb, hbb with | ⟨0, _⟩, _ => rfl | ⟨1, _⟩, hbb => absurd rfl hbb) rfl]
  rw [val_main_v27_apply]
  exact congrArg _ (funext fun a => match a with | ⟨0, _⟩ => rfl)

/-- The reference's result at (b, n, j). -/
theorem result_at (b : Fin 4096) (n : Fin 10000) (j : Fin 2) :
    val_main_v38 (F := Ideal) x0 x1 (ix3 b n j)
      = Scalar.select (val_main_v36 (F := Ideal) x1 (ix1 b))
          (min (Ideal.ofBits .f32 0x3F800000#32) (max (Ideal.ofBits .f32 0x00000000#32)
            (val_main_v25 (F := Ideal) x0 x1 (ix1 b) * (x0 (ix3 b n j) - val_main_v28 (F := Ideal) x0 x1 (ix2 b j)))))
          (x0 (ix3 b n j)) := by
  have hA : idx_main_v37 (idx_main_call8_v0 (ix3 b n j)) = ix1 b := funext fun a => match a with | ⟨0, _⟩ => rfl
  have hB : idx_main_v29 (idx_main_v33 (ix3 b n j)) = ix1 b := funext fun a => match a with | ⟨0, _⟩ => rfl
  have hC : idx_main_v30 (idx_main_v31 (ix3 b n j)) = ix2 b j := funext fun a => match a with | ⟨0, _⟩ => rfl | ⟨1, _⟩ => rfl
  rw [val_main_v38_apply, val_main_call8_v0_apply, val_main_v37_apply, hA, val_main_v35_apply, val_main_call7_v4_apply,
    val_main_call7_v3_apply, val_main_cst_11_apply, val_main_call7_v2_apply, val_main_call7_v1_apply, val_main_call7_v0_apply,
    val_main_cst_10_apply, val_main_v34_apply, val_main_v33_apply, val_main_v29_apply, hB, val_main_v32_apply, val_main_v31_apply,
    val_main_v30_apply, hC]
  rfl

end Cert.ReferenceIdeal.At

end
-- ==== Proof.RowStats.lean ====
/-
  The per-row statistics are real numbers on a row that has a candidate.

  Assume every point coordinate is a real number and every candidate index w satisfies −10000 ≤ w < 10000 (read signed).
  The index actually gathered is w with −1 replaced by 0, then shifted by 10000 when negative; it lies in 0 … 9999, so
  the in-range test of take_along_axis passes at every entry and the gathered value is an entry of the points array, a
  real number, never the fill value. On a row with at least one index different from −1 the least and the greatest
  gathered coordinate over those indices are therefore real: each masked entry is a real or the neutral infinity, and at
  least one is a real. The span is then a real, floored by a positive real, and its reciprocal is a real.
-/
import proofs.«162652_j25099788878674_2_alg».proof.Proof.RefReadP
import proofs.«162652_j25099788878674_2_alg».proof.Proof.ElemAlgebra
import Idealize.ShloMosaic.Lib.Affine
import Idealize.ShloMosaic.Lib.ValueIdx
import Idealize.ShloMosaic.PureOps.Reduce

noncomputable section

namespace Cert.ReferenceIdeal.RowStats

open Cert.ReferenceIdeal Cert.ReferenceIdeal.Gen Cert.ReferenceIdeal.ReadP Idealize.ShloMosaic Idealize.ShloMosaic.ValueIdx
open Cert.NormAlgebra

/-! ## Words -/

/-- For −10000 ≤ w < 10000: w with −1 replaced by 0, then shifted by 10000 when negative, lies in 0 … 9999. -/
theorem in_range (w : BitVec 32) (hlo : IntOp.cmpi .sge w 4294957296#32 = 1#1) (hhi : IntOp.cmpi .slt w 10000#32 = 1#1)
    (s nrm : BitVec 32) (hs : Scalar.select (IntOp.cmpi .ne w 4294967295#32) w 0#32 = s)
    (hn : Scalar.select (IntOp.cmpi .slt s 0#32) (IntOp.addi s 10000#32) s = nrm) :
    IntOp.andi (IntOp.cmpi .sge nrm 0#32) (IntOp.cmpi .sle nrm 9999#32) = 1#1 := by
  rw [IntOp.cmpi_sge] at hlo; rw [IntOp.cmpi_slt] at hhi
  have e1 : (4294957296#32 : BitVec 32).toInt = -10000 := by decide
  have e2 : (10000#32 : BitVec 32).toInt = 10000 := by decide
  have e3 : (0#32 : BitVec 32).toInt = 0 := by decide
  have e4 : (9999#32 : BitVec 32).toInt = 9999 := by decide
  rw [e1] at hlo; rw [e2] at hhi
  have hsr : -10000 ≤ s.toInt ∧ s.toInt < 10000 := by
    by_cases hw : w = 4294967295#32
    · subst hw; subst hs; decide
    · have h1 : IntOp.cmpi .ne w 4294967295#32 = 1#1 := IntOp.cmpi_ne.2 hw
      rw [h1, select_one] at hs; subst hs; exact ⟨hlo, hhi⟩
  have hnr : 0 ≤ nrm.toInt ∧ nrm.toInt ≤ 9999 := by
    by_cases hneg : s.toInt < 0
    · have h1 : IntOp.cmpi .slt s 0#32 = 1#1 := IntOp.cmpi_slt.2 (by rw [e3]; exact hneg)
      rw [h1, select_one] at hn; subst hn
      show 0 ≤ (s + 10000#32).toInt ∧ (s + 10000#32).toInt ≤ 9999
      rw [BitVec.toInt_add, e2]
      have hb : (s.toInt + 10000).bmod (2 ^ 32) = s.toInt + 10000 := by
        unfold Int.bmod
        norm_num
        omega
      rw [hb]; omega
    · have h1 : IntOp.cmpi .slt s 0#32 = 0#1 := eq_zero_of_ne_one (fun h => hneg (by have := IntOp.cmpi_slt.1 h; rw [e3] at this; exact this))
      rw [h1, select_zero] at hn; subst hn; omega
  rw [IntOp.andi_eq_one, IntOp.cmpi_sge, IntOp.cmpi_sle, e3, e4]
  exact hnr

/-! ## Folds -/

/-- A fold of "and" from 1 over entries that are all 1 is 1. -/
theorem fold_andi_one {ι : Type} (s : Finset ι) (f : ι → BitVec 1) (h : ∀ x ∈ s, f x = 1#1) :
    s.fold IntOp.andi 1#1 f = 1#1 := by
  classical
  induction s using Finset.induction_on with
  | empty => rfl
  | insert a s ha ih =>
    rw [Finset.fold_insert ha, h a (Finset.mem_insert_self a s), ih fun x hx => h x (Finset.mem_insert_of_mem hx)]
    decide

/-- A fold of "or" from 0 that is 1 met a 1. -/
theorem fold_ori_one {ι : Type} (s : Finset ι) (f : ι → BitVec 1) (h : s.fold IntOp.ori 0#1 f = 1#1) :
    ∃ x ∈ s, f x = 1#1 := by
  classical
  induction s using Finset.induction_on with
  | empty => rw [Finset.fold_empty] at h; exact absurd h (by decide)
  | insert a s ha ih =>
    rw [Finset.fold_insert ha, IntOp.ori_eq_one] at h
    rcases h with h | h
    · exact ⟨a, Finset.mem_insert_self a s, h⟩
    · obtain ⟨x, hx, hfx⟩ := ih h
      exact ⟨x, Finset.mem_insert_of_mem hx, hfx⟩

/-- A fold of min from +∞ over entries none of which is −∞ and one of which is not +∞ is a real. -/
theorem fold_min_real {ι : Type} (s : Finset ι) (f : ι → EReal) (hb : ∀ x ∈ s, f x ≠ ⊥) (i0 : ι) (hi0 : i0 ∈ s) (hr : f i0 ≠ ⊤) :
    ∃ r : ℝ, s.fold min (⊤ : EReal) f = (r : EReal) := by
  have h1 : (⊥ : EReal) < s.fold min ⊤ f := (Finset.lt_fold_min _).2 ⟨bot_lt_top, fun x hx => bot_lt_iff_ne_bot.2 (hb x hx)⟩
  have h2 : s.fold min (⊤ : EReal) f < ⊤ := (Finset.fold_min_lt _).2 (Or.inr ⟨i0, hi0, lt_top_iff_ne_top.2 hr⟩)
  exact ⟨_, (EReal.coe_toReal h2.ne h1.ne').symm⟩

/-- A fold of max from −∞ over entries none of which is +∞ and one of which is not −∞ is a real. -/
theorem fold_max_real {ι : Type} (s : Finset ι) (f : ι → EReal) (hb : ∀ x ∈ s, f x ≠ ⊤) (i0 : ι) (hi0 : i0 ∈ s) (hr : f i0 ≠ ⊥) :
    ∃ r : ℝ, s.fold max (⊥ : EReal) f = (r : EReal) := by
  have h1 : s.fold max (⊥ : EReal) f < ⊤ := (Finset.fold_max_lt _).2 ⟨bot_lt_top, fun x hx => lt_top_iff_ne_top.2 (hb x hx)⟩
  have h2 : (⊥ : EReal) < s.fold max ⊥ f := (Finset.lt_fold_max _).2 (Or.inr ⟨i0, hi0, bot_lt_iff_ne_bot.2 hr⟩)
  exact ⟨_, (EReal.coe_toReal h1.ne h2.ne').symm⟩

/-! ## The gathered candidates -/

section
variable (x0 : (⟨S4096x10000x2, .f32⟩ : BufTy).Contents (Elt Ideal)) (x1 : (⟨S4096x100, .i32⟩ : BufTy).Contents (Elt Ideal))
variable (hx0 : ∀ i, ∃ r : ℝ, x0 i = (r : EReal))
variable (hx1 : ∀ i, IntOp.cmpi .sge (x1 i) 4294957296#32 = 1#1 ∧ IntOp.cmpi .slt (x1 i) 10000#32 = 1#1)

include hx1 in
/-- The in-range test passes at every gathered index. -/
theorem inb_all (i : S4096x100x2x1.Idx) : val_main_call1_v11 (F := Ideal) x1 i = 1#1 := by
  simp only [val_main_call1_v11_apply, val_main_call1_v7_apply, val_main_call1_v10_apply, val_main_call1_v6_apply,
    val_main_call1_c_2_apply, val_main_call1_v9_apply, val_main_call1_v8_apply, val_main_call1_c_1_apply,
    val_main_call1_v5_apply, val_main_call1_v4_apply, val_main_call1_v1_apply, val_main_call1_v3_apply,
    val_main_call1_v0_apply, val_main_call1_c_apply, val_main_call1_v2_apply, val_main_call1_c_0_apply,
    val_main_v4_apply, val_main_v3_apply, val_main_v2_apply, val_main_v1_apply, val_main_v0_apply, val_main_c_apply,
    val_main_call0_v1_apply, val_main_call0_v0_apply, val_main_c_0_apply]
  exact in_range (x1 _) (hx1 _).1 (hx1 _).2 _ _ rfl rfl

include hx1 in
/-- So the select of take_along_axis takes the gathered value everywhere. -/
theorem sel_all (i : S4096x100x2.Idx) : val_main_call1_v12 (F := Ideal) x1 i = 1#1 := by
  unfold val_main_call1_v12
  rw [Host.reduce_eq_fold]
  exact fold_andi_one _ _ fun x _ => inb_all x1 hx1 x

include hx0 hx1 in
/-- Every gathered coordinate is a real number. -/
theorem cand_real (i : S4096x100x2.Idx) : ∃ r : ℝ, val_main_v5 (F := Ideal) x0 x1 i = (r : EReal) := by
  rw [val_main_v5_apply, sel_all x1 hx1, select_one]
  exact hx0 _

include hx0 hx1 in
theorem x_real (i : S4096x100.Idx) : ∃ r : ℝ, val_main_v7 (F := Ideal) x0 x1 i = (r : EReal) := by
  rw [val_main_v7_apply, val_main_v6_apply]; exact cand_real x0 x1 hx0 hx1 _

include hx0 hx1 in
theorem y_real (i : S4096x100.Idx) : ∃ r : ℝ, val_main_v9 (F := Ideal) x0 x1 i = (r : EReal) := by
  rw [val_main_v9_apply, val_main_v8_apply]; exact cand_real x0 x1 hx0 hx1 _

/-! ## A live row -/

/-- A row whose "any candidate" bit is 1 has an index different from −1. -/
theorem live_witness (b : S4096.Idx) (h : val_main_v36 (F := Ideal) x1 b = 1#1) :
    ∃ i, reducesTo_S4096x100_S4096_d1.drop i = b ∧ val_main_v1 (F := Ideal) x1 i = 1#1 := by
  unfold val_main_v36 at h
  rw [Host.reduce_eq_fold] at h
  obtain ⟨i, hi, hv⟩ := fold_ori_one _ _ h
  exact ⟨i, (Finset.mem_filter.1 hi).2, hv⟩

/-- A masked row minimum: entries real where the mask is 1, +∞ elsewhere, one mask bit 1. -/
theorem masked_min_real (v : S4096x100.Idx → BitVec 1) (g : S4096x100.Idx → EReal) (hg : ∀ i, ∃ r : ℝ, g i = (r : EReal))
    (b : S4096.Idx) (i0 : S4096x100.Idx) (hi0 : reducesTo_S4096x100_S4096_d1.drop i0 = b) (hv : v i0 = 1#1) :
    ∃ r : ℝ, Host.reduce (min : EReal → EReal → EReal) (fun i => Scalar.select (v i) (g i) (⊤ : EReal)) (fun _ : S_.Idx => (⊤ : EReal))
      reducesTo_S4096x100_S4096_d1 h_S_ b = (r : EReal) := by
  rw [Host.reduce_eq_fold]
  refine fold_min_real _ _ (fun i _ => ?_) i0 (Finset.mem_filter.2 ⟨Finset.mem_univ _, hi0⟩) ?_
  · obtain ⟨r, hr⟩ := hg i
    rcases BitVec.eq_zero_or_eq_one (v i) with h | h
    · rw [h, select_zero]; exact top_ne_bot
    · rw [h, select_one, hr]; exact EReal.coe_ne_bot r
  · obtain ⟨r, hr⟩ := hg i0
    rw [hv, select_one, hr]; exact EReal.coe_ne_top r

/-- A masked row maximum: entries real where the mask is 1, −∞ elsewhere, one mask bit 1. -/
theorem masked_max_real (v : S4096x100.Idx → BitVec 1) (g : S4096x100.Idx → EReal) (hg : ∀ i, ∃ r : ℝ, g i = (r : EReal))
    (b : S4096.Idx) (i0 : S4096x100.Idx) (hi0 : reducesTo_S4096x100_S4096_d1.drop i0 = b) (hv : v i0 = 1#1) :
    ∃ r : ℝ, Host.reduce (max : EReal → EReal → EReal) (fun i => Scalar.select (v i) (g i) (⊥ : EReal)) (fun _ : S_.Idx => (⊥ : EReal))
      reducesTo_S4096x100_S4096_d1 h_S_ b = (r : EReal) := by
  rw [Host.reduce_eq_fold]
  refine fold_max_real _ _ (fun i _ => ?_) i0 (Finset.mem_filter.2 ⟨Finset.mem_univ _, hi0⟩) ?_
  · obtain ⟨r, hr⟩ := hg i
    rcases BitVec.eq_zero_or_eq_one (v i) with h | h
    · rw [h, select_zero]; exact bot_ne_top
    · rw [h, select_one, hr]; exact EReal.coe_ne_top r
  · obtain ⟨r, hr⟩ := hg i0
    rw [hv, select_one, hr]; exact EReal.coe_ne_bot r

/-- The masked rows of the program are of that form: the fill values are the words of ±∞. -/
theorem v10_eq : val_main_v10 (F := Ideal) x0 x1 = fun i => Scalar.select (val_main_v1 (F := Ideal) x1 i) (val_main_v7 (F := Ideal) x0 x1 i) (⊤ : EReal) := by
  funext i
  rw [val_main_v10_apply, val_main_call2_v0_apply, val_main_cst_apply]
  show Scalar.select _ _ (Ideal.ofBits .f32 0x7F800000#32) = _
  rw [ofBits_posInf]
theorem v15_eq : val_main_v15 (F := Ideal) x0 x1 = fun i => Scalar.select (val_main_v1 (F := Ideal) x1 i) (val_main_v9 (F := Ideal) x0 x1 i) (⊤ : EReal) := by
  funext i
  rw [val_main_v15_apply, val_main_call4_v0_apply, val_main_cst_4_apply]
  show Scalar.select _ _ (Ideal.ofBits .f32 0x7F800000#32) = _
  rw [ofBits_posInf]
theorem v13_eq : val_main_v13 (F := Ideal) x0 x1 = fun i => Scalar.select (val_main_v1 (F := Ideal) x1 i) (val_main_v7 (F := Ideal) x0 x1 i) (⊥ : EReal) := by
  funext i
  rw [val_main_v13_apply, val_main_call3_v0_apply, val_main_v12_apply, val_main_cst_2_apply]
  show Scalar.select _ _ (-(Ideal.ofBits .f32 0x7F800000#32)) = _
  rw [ofBits_posInf]; rfl
theorem v18_eq : val_main_v18 (F := Ideal) x0 x1 = fun i => Scalar.select (val_main_v1 (F := Ideal) x1 i) (val_main_v9 (F := Ideal) x0 x1 i) (⊥ : EReal) := by
  funext i
  rw [val_main_v18_apply, val_main_call5_v0_apply, val_main_v17_apply, val_main_cst_6_apply]
  show Scalar.select _ _ (-(Ideal.ofBits .f32 0x7F800000#32)) = _
  rw [ofBits_posInf]; rfl

theorem init_top (c : (⟨S_, .f32⟩ : BufTy).Contents (Elt Ideal)) (hc : ∀ i, c i = Ideal.ofBits .f32 0x7F800000#32) :
    c = fun _ => (⊤ : EReal) := funext fun i => (hc i).trans ofBits_posInf
theorem init_bot (c : (⟨S_, .f32⟩ : BufTy).Contents (Elt Ideal)) (hc : ∀ i, c i = Ideal.ofBits .f32 0xFF800000#32) :
    c = fun _ => (⊥ : EReal) := funext fun i => (hc i).trans ofBits_negInf

include hx0 hx1 in
/-- On a live row the four extremes, and the reciprocal of the floored span, are real numbers. -/
theorem live_row_real (b : S4096.Idx) (h : val_main_v36 (F := Ideal) x1 b = 1#1) :
    ∃ xm ym rr : ℝ, val_main_v11 (F := Ideal) x0 x1 b = (xm : EReal) ∧ val_main_v16 (F := Ideal) x0 x1 b = (ym : EReal)
      ∧ val_main_v25 (F := Ideal) x0 x1 b = (rr : EReal) := by
  obtain ⟨i0, hi0, hv⟩ := live_witness x1 b h
  obtain ⟨xm, hxm⟩ : ∃ r : ℝ, val_main_v11 (F := Ideal) x0 x1 b = (r : EReal) := by
    unfold val_main_v11
    rw [v10_eq, init_top _ val_main_cst_1_apply]
    exact masked_min_real _ _ (x_real x0 x1 hx0 hx1) b i0 hi0 hv
  obtain ⟨xM, hxM⟩ : ∃ r : ℝ, val_main_v14 (F := Ideal) x0 x1 b = (r : EReal) := by
    unfold val_main_v14
    rw [v13_eq, init_bot _ val_main_cst_3_apply]
    exact masked_max_real _ _ (x_real x0 x1 hx0 hx1) b i0 hi0 hv
  obtain ⟨ym, hym⟩ : ∃ r : ℝ, val_main_v16 (F := Ideal) x0 x1 b = (r : EReal) := by
    unfold val_main_v16
    rw [v15_eq, init_top _ val_main_cst_5_apply]
    exact masked_min_real _ _ (y_real x0 x1 hx0 hx1) b i0 hi0 hv
  obtain ⟨yM, hyM⟩ : ∃ r : ℝ, val_main_v19 (F := Ideal) x0 x1 b = (r : EReal) := by
    unfold val_main_v19
    rw [v18_eq, init_bot _ val_main_cst_7_apply]
    exact masked_max_real _ _ (y_real x0 x1 hx0 hx1) b i0 hi0 hv
  obtain ⟨e, he, hee⟩ := ofBits_floor
  refine ⟨xm, ym, 1 / max e (max (xM - xm) (yM - ym)), hxm, hym, ?_⟩
  rw [val_main_v25_apply, val_main_v24_apply, val_main_cst_9_apply, val_main_v23_apply, val_main_call6_v1_apply,
    val_main_call6_v0_apply, val_main_cst_8_apply, val_main_v22_apply, val_main_v20_apply, val_main_v21_apply, hxm, hxM, hym, hyM]
  show Ideal.div (Ideal.ofBits .f32 0x3F800000#32) (max (Ideal.ofBits .f32 0x358637BD#32) (max ((xM : EReal) - (xm : EReal)) ((yM : EReal) - (ym : EReal)))) = _
  rw [ofBits_one, hee, ← EReal.coe_sub, ← EReal.coe_sub]
  exact recip_real _ _ e he

end

end Cert.ReferenceIdeal.RowStats

end
-- ==== Proof.Bridge.lean ====
/-
  The kernel program's result and the reference's are one function of the two argument arrays.

  The kernel program's result is the launch's [4096, 20000] output cast back to [4096, 10000, 2]; entry (b, n, j) is
  entry (b, 2n + j) of the launch's output: the element computed from the point coordinate x = nodes (b, n, j), the lane
  parity (2n + j) mod 2 = j and the five scalars of row b. The reference's entry (b, n, j) selects by the row's "any
  candidate" bit. Both programs compute the bit, the least gathered x and y and the reciprocal rr of the floored span by
  the same operations. On a dead row both give x. On a live row the statistics are real numbers (the index range of the
  precondition keeps every gathered value an entry of the points array), and x·rr + (−rr)·m = rr·(x − m) in ℝ.
-/
import proofs.«162652_j25099788878674_2_alg».proof.Proof.KernelWhole
import proofs.«162652_j25099788878674_2_alg».proof.Proof.KernelHostDefs
import proofs.«162652_j25099788878674_2_alg».proof.Proof.LaneParity
import proofs.«162652_j25099788878674_2_alg».proof.Proof.RefAt
import proofs.«162652_j25099788878674_2_alg».proof.Proof.RowStats
import proofs.«162652_j25099788878674_2_alg».proof.Proof.ElemAlgebra

noncomputable section

namespace Cert.Bridge

open Idealize.ShloMosaic Idealize.ShloMosaic.ValueIdx Cert.NormAlgebra

/-- The two argument arrays, typed by the reference's shapes (the kernel program's are the same shapes). -/
abbrev Pts := (⟨Cert.ReferenceIdeal.S4096x10000x2, .f32⟩ : BufTy).Contents (Elt Ideal)
abbrev Idxs := (⟨Cert.ReferenceIdeal.S4096x100, .i32⟩ : BufTy).Contents (Elt Ideal)

/-- The kernel program's result as a function of the two argument arrays. -/
def kernelResult (x0 : Pts) (x1 : Idxs) : Pts :=
  shapeCast Cert.KernelIdeal.S4096x10000x2
    (Cert.KernelIdeal.Whole.Warr (shapeCast Cert.KernelIdeal.S4096x20000 x0 Cert.KernelIdeal.Gen.shapeCasts_S4096x10000x2_S4096x20000)
      Cert.KernelIdeal.Parity.parityRow (Cert.KernelIdeal.HostSide.scalars (F := Ideal) x0 x1))
    Cert.KernelIdeal.Gen.shapeCasts_S4096x20000_S4096x10000x2

/-! ## The shared row statistics: the two programs' stages are one function -/

theorem xmin_eq (x0 : Pts) (x1 : Idxs) : Cert.KernelIdeal.ReadK.val_main_v11 (F := Ideal) x0 x1 = Cert.ReferenceIdeal.ReadP.val_main_v11 (F := Ideal) x0 x1 := rfl
theorem ymin_eq (x0 : Pts) (x1 : Idxs) : Cert.KernelIdeal.ReadK.val_main_v16 (F := Ideal) x0 x1 = Cert.ReferenceIdeal.ReadP.val_main_v16 (F := Ideal) x0 x1 := rfl
theorem rr_eq (x0 : Pts) (x1 : Idxs) : Cert.KernelIdeal.ReadK.val_main_v25 (F := Ideal) x0 x1 = Cert.ReferenceIdeal.ReadP.val_main_v25 (F := Ideal) x0 x1 := rfl
theorem live_eq (x1 : Idxs) : Cert.KernelIdeal.HostSide.live (F := Ideal) x1 = Cert.ReferenceIdeal.ReadP.val_main_v36 (F := Ideal) x1 := rfl

/-! ## The kernel program's result at an index -/

/-- The lane parity at lane 2n + j is j. -/
theorem parity_at (n : Fin 10000) (j : Fin 2) (h : 2 * n.val + j.val < 20000) :
    Cert.KernelIdeal.Parity.parityRow (ix2 (0 : Fin 1) ⟨2 * n.val + j.val, h⟩) = (((j.val : ℕ) : ℝ) : EReal) := by
  rw [Cert.KernelIdeal.Parity.parityRow_apply]
  have : (2 * n.val + j.val) % 2 = j.val := by have := j.isLt; omega
  show ((((2 * n.val + j.val) % 2 : ℕ) : ℝ) : EReal) = _
  rw [this]

/-- Entry (b, n, j) of the kernel program's result: the element of the point, the parity j and row b's scalars. -/
theorem kernel_at (x0 : Pts) (x1 : Idxs) (b : Fin 4096) (n : Fin 10000) (j : Fin 2) :
    kernelResult x0 x1 (ix3 b n j)
      = kerElem (x0 (ix3 b n j)) (((j.val : ℕ) : ℝ) : EReal)
          (Scalar.select (Cert.ReferenceIdeal.ReadP.val_main_v36 (F := Ideal) x1 (ix1 b)) (Cert.ReferenceIdeal.ReadP.val_main_v25 (F := Ideal) x0 x1 (ix1 b)) (Ideal.ofBits .f32 0x3F800000#32))
          (Scalar.select (Cert.ReferenceIdeal.ReadP.val_main_v36 (F := Ideal) x1 (ix1 b)) (-(Cert.ReferenceIdeal.ReadP.val_main_v25 (F := Ideal) x0 x1 (ix1 b)) * Cert.ReferenceIdeal.ReadP.val_main_v11 (F := Ideal) x0 x1 (ix1 b)) (Ideal.ofBits .f32 0x00000000#32))
          (Scalar.select (Cert.ReferenceIdeal.ReadP.val_main_v36 (F := Ideal) x1 (ix1 b)) (-(Cert.ReferenceIdeal.ReadP.val_main_v25 (F := Ideal) x0 x1 (ix1 b)) * Cert.ReferenceIdeal.ReadP.val_main_v16 (F := Ideal) x0 x1 (ix1 b)) (Ideal.ofBits .f32 0x00000000#32))
          (Scalar.select (Cert.ReferenceIdeal.ReadP.val_main_v36 (F := Ideal) x1 (ix1 b)) (Ideal.ofBits .f32 0x00000000#32) (-(Ideal.ofBits .f32 0x7F800000#32)))
          (Scalar.select (Cert.ReferenceIdeal.ReadP.val_main_v36 (F := Ideal) x1 (ix1 b)) (Ideal.ofBits .f32 0x3F800000#32) (Ideal.ofBits .f32 0x7F800000#32)) := by
  have hq : 2 * n.val + j.val < 20000 := by have := n.isLt; have := j.isLt; omega
  unfold kernelResult
  rw [shapeCast_apply _ Cert.KernelIdeal.Gen.shapeCasts_S4096x20000_S4096x10000x2 (ix3 b n j) (ix2 b (⟨2 * n.val + j.val, hq⟩ : Fin 20000)) (by
    rw [Shape.rowMajor_val_two, Shape.rowMajor_val_three]
    show b.val * 20000 + (2 * n.val + j.val) = (b.val * 10000 + n.val) * 2 + j.val
    omega)]
  rw [Cert.KernelIdeal.Whole.Warr_ix2]
  unfold Cert.KernelIdeal.Whole.W
  rw [shapeCast_apply x0 Cert.KernelIdeal.Gen.shapeCasts_S4096x10000x2_S4096x20000 (ix2 b (⟨2 * n.val + j.val, hq⟩ : Fin 20000)) (ix3 b n j) (by
    rw [Shape.rowMajor_val_two, Shape.rowMajor_val_three]
    show (b.val * 10000 + n.val) * 2 + j.val = b.val * 20000 + (2 * n.val + j.val)
    omega)]
  rw [parity_at n j hq, Cert.KernelIdeal.HostSide.scalars_0, Cert.KernelIdeal.HostSide.scalars_1, Cert.KernelIdeal.HostSide.scalars_2,
    Cert.KernelIdeal.HostSide.scalars_3, Cert.KernelIdeal.HostSide.scalars_4, live_eq, rr_eq, xmin_eq, ymin_eq]

/-! ## The two results agree -/

theorem result_at_eq0 (x0 : Pts) (x1 : Idxs) (hx0 : ∀ i, ∃ r : ℝ, x0 i = (r : EReal))
    (hx1 : ∀ i, IntOp.cmpi .sge (x1 i) 4294957296#32 = 1#1 ∧ IntOp.cmpi .slt (x1 i) 10000#32 = 1#1)
    (b : Fin 4096) (n : Fin 10000) :
    kernelResult x0 x1 (ix3 b n (0 : Fin 2)) = Cert.ReferenceIdeal.ReadP.val_main_v38 (F := Ideal) x0 x1 (ix3 b n (0 : Fin 2)) := by
  rw [kernel_at, Cert.ReferenceIdeal.At.result_at]
  obtain ⟨x, hx⟩ := hx0 (ix3 b n (0 : Fin 2))
  rw [hx]
  have hj : (((0 : Fin 2).val : ℕ) : ℝ) = (0 : ℝ) := by norm_num
  rw [hj]
  rcases BitVec.eq_zero_or_eq_one (Cert.ReferenceIdeal.ReadP.val_main_v36 (F := Ideal) x1 (ix1 b)) with hl | hl
  · -- a dead row
    rw [hl]
    simp only [select_zero]
    rw [ofBits_one, ofBits_zero, ofBits_posInf]
    unfold kerElem
    exact dead_row x _ (Or.inl (by norm_num))
  · -- a live row
    obtain ⟨xm, ym, rr, hxm, hym, hrr⟩ := Cert.ReferenceIdeal.RowStats.live_row_real x0 x1 hx0 hx1 (ix1 b) hl
    rw [hl]
    simp only [select_one]
    rw [Cert.ReferenceIdeal.At.mins_x, hrr, hxm, hym, ofBits_one, ofBits_zero]
    unfold kerElem
    exact live_row_x x rr xm ym

theorem result_at_eq1 (x0 : Pts) (x1 : Idxs) (hx0 : ∀ i, ∃ r : ℝ, x0 i = (r : EReal))
    (hx1 : ∀ i, IntOp.cmpi .sge (x1 i) 4294957296#32 = 1#1 ∧ IntOp.cmpi .slt (x1 i) 10000#32 = 1#1)
    (b : Fin 4096) (n : Fin 10000) :
    kernelResult x0 x1 (ix3 b n (1 : Fin 2)) = Cert.ReferenceIdeal.ReadP.val_main_v38 (F := Ideal) x0 x1 (ix3 b n (1 : Fin 2)) := by
  rw [kernel_at, Cert.ReferenceIdeal.At.result_at]
  obtain ⟨x, hx⟩ := hx0 (ix3 b n (1 : Fin 2))
  rw [hx]
  have hj : (((1 : Fin 2).val : ℕ) : ℝ) = (1 : ℝ) := by norm_num
  rw [hj]
  rcases BitVec.eq_zero_or_eq_one (Cert.ReferenceIdeal.ReadP.val_main_v36 (F := Ideal) x1 (ix1 b)) with hl | hl
  · -- a dead row
    rw [hl]
    simp only [select_zero]
    rw [ofBits_one, ofBits_zero, ofBits_posInf]
    unfold kerElem
    exact dead_row x _ (Or.inr (by norm_num))
  · -- a live row
    obtain ⟨xm, ym, rr, hxm, hym, hrr⟩ := Cert.ReferenceIdeal.RowStats.live_row_real x0 x1 hx0 hx1 (ix1 b) hl
    rw [hl]
    simp only [select_one]
    rw [Cert.ReferenceIdeal.At.mins_y, hrr, hxm, hym, ofBits_one, ofBits_zero]
    unfold kerElem
    exact live_row_y x rr xm ym

theorem result_at_eq (x0 : Pts) (x1 : Idxs) (hx0 : ∀ i, ∃ r : ℝ, x0 i = (r : EReal))
    (hx1 : ∀ i, IntOp.cmpi .sge (x1 i) 4294957296#32 = 1#1 ∧ IntOp.cmpi .slt (x1 i) 10000#32 = 1#1)
    (b : Fin 4096) (n : Fin 10000) (j : Fin 2) :
    kernelResult x0 x1 (ix3 b n j) = Cert.ReferenceIdeal.ReadP.val_main_v38 (F := Ideal) x0 x1 (ix3 b n j) :=
  match j with
  | ⟨0, _⟩ => result_at_eq0 x0 x1 hx0 hx1 b n
  | ⟨1, _⟩ => result_at_eq1 x0 x1 hx0 hx1 b n

/-- Under the precondition's two facts the kernel program's result is the reference's. -/
theorem result_eq (x0 : Pts) (x1 : Idxs) (hx0 : ∀ i, ∃ r : ℝ, x0 i = (r : EReal))
    (hx1 : ∀ i, IntOp.cmpi .sge (x1 i) 4294957296#32 = 1#1 ∧ IntOp.cmpi .slt (x1 i) 10000#32 = 1#1) :
    kernelResult x0 x1 = Cert.ReferenceIdeal.ReadP.val_main_v38 (F := Ideal) x0 x1 := by
  funext i
  rw [eq_ix3 i]
  exact result_at_eq x0 x1 hx0 hx1 _ _ _

end Cert.Bridge

end
-- ==== Proof.KernelHostA.lean ====
/-
  The first stretch of the host operations before the launch, folded in two steps: the validity mask and the gather
  indices, then the gather of the candidates (take_along_axis). What they leave at the mask's and at the candidates'
  buffers are the staged functions of the two arguments.
-/
import proofs.«162652_j25099788878674_2_alg».proof.Proof.KernelHostDefs
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

section A1
variable (W : Valuation τ sig (Elt F))
set_option maxRecDepth 65536 in
set_option maxHeartbeats 4000000 in
theorem stA1_v1 : after stA1 W (Proc.devRef .tc main_v1) = val_main_v1 (F := F) (W (Proc.devRef .tc main_arg1)) := by
  simp only [stA1, hostOps0, hostOps0_1, hostOps0_2, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq,
    val_main_c, val_main_v0, val_main_v1, val_main_c_0, val_main_call0_v0, val_main_call0_v1, val_main_v2, val_main_v3, val_main_v4]
set_option maxRecDepth 65536 in
set_option maxHeartbeats 4000000 in
theorem stA1_v4 : after stA1 W (Proc.devRef .tc main_v4) = val_main_v4 (F := F) (W (Proc.devRef .tc main_arg1)) := by
  simp only [stA1, hostOps0, hostOps0_1, hostOps0_2, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq,
    val_main_c, val_main_v0, val_main_v1, val_main_c_0, val_main_call0_v0, val_main_call0_v1, val_main_v2, val_main_v3, val_main_v4]
set_option maxRecDepth 65536 in
set_option maxHeartbeats 4000000 in
theorem stA1_arg0 : after stA1 W (Proc.devRef .tc main_arg0) = W (Proc.devRef .tc main_arg0) := by
  simp only [stA1, hostOps0, hostOps0_1, hostOps0_2, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end A1

section A2
variable (W : Valuation τ sig (Elt F)) (x0 : (⟨S4096x10000x2, .f32⟩ : BufTy).Contents (Elt F)) (x1 : (⟨S4096x100, .i32⟩ : BufTy).Contents (Elt F))
  (h0 : W (Proc.devRef .tc main_arg0) = x0) (h4 : W (Proc.devRef .tc main_v4) = val_main_v4 (F := F) x1)
include h0 h4 in
set_option maxRecDepth 65536 in
set_option maxHeartbeats 4000000 in
theorem stA2_v5 : after stA2 W (Proc.devRef .tc main_v5) = val_main_v5 (F := F) x0 x1 := by
  simp only [stA2, hostOps0_3, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h0, h4,
    val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_v13, val_main_call1_cst, val_main_call1_v14, val_main_v5]
set_option maxRecDepth 65536 in
set_option maxHeartbeats 4000000 in
theorem stA2_v1 : after stA2 W (Proc.devRef .tc main_v1) = W (Proc.devRef .tc main_v1) := by
  simp only [stA2, hostOps0_3, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
set_option maxRecDepth 65536 in
set_option maxHeartbeats 4000000 in
theorem stA2_arg0 : after stA2 W (Proc.devRef .tc main_arg0) = W (Proc.devRef .tc main_arg0) := by
  simp only [stA2, hostOps0_3, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end A2

end Cert.KernelIdeal.HostSide

end
-- ==== Proof.KernelHostB.lean ====
/-
  The second stretch, folded: from the gathered candidates to the least x and y and the floored span of each row.
-/
import proofs.«162652_j25099788878674_2_alg».proof.Proof.KernelHostDefs
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

section B
variable (W : Valuation τ sig (Elt F)) (x0 : (⟨S4096x10000x2, .f32⟩ : BufTy).Contents (Elt F)) (x1 : (⟨S4096x100, .i32⟩ : BufTy).Contents (Elt F))
  (h1 : W (Proc.devRef .tc main_v1) = val_main_v1 (F := F) x1) (h5 : W (Proc.devRef .tc main_v5) = val_main_v5 (F := F) x0 x1)
include h1 h5
set_option maxRecDepth 65536 in
set_option maxHeartbeats 4000000 in
theorem stB_v11 : after stB W (Proc.devRef .tc main_v11) = val_main_v11 (F := F) x0 x1 := by
  simp only [stB, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23]
set_option maxRecDepth 65536 in
set_option maxHeartbeats 4000000 in
theorem stB_v16 : after stB W (Proc.devRef .tc main_v16) = val_main_v16 (F := F) x0 x1 := by
  simp only [stB, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23]
set_option maxRecDepth 65536 in
set_option maxHeartbeats 4000000 in
theorem stB_v23 : after stB W (Proc.devRef .tc main_v23) = val_main_v23 (F := F) x0 x1 := by
  simp only [stB, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23]
omit h1 h5 in
set_option maxRecDepth 65536 in
set_option maxHeartbeats 4000000 in
theorem stB_v1 : after stB W (Proc.devRef .tc main_v1) = W (Proc.devRef .tc main_v1) := by
  simp only [stB, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
omit h1 h5 in
set_option maxRecDepth 65536 in
set_option maxHeartbeats 4000000 in
theorem stB_arg0 : after stB W (Proc.devRef .tc main_arg0) = W (Proc.devRef .tc main_arg0) := by
  simp only [stB, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end B

end Cert.KernelIdeal.HostSide

end
-- ==== Proof.KernelHostD.lean ====
/-
  The third stretch, folded: the reciprocal, the "any candidate" bit, the five row scalars joined into the [4096, 5]
  operand, the points cast to [4096, 20000], and the lane numbers.
-/
import proofs.«162652_j25099788878674_2_alg».proof.Proof.KernelHostDefs
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

section D
variable (W : Valuation τ sig (Elt F)) (x0 : (⟨S4096x10000x2, .f32⟩ : BufTy).Contents (Elt F)) (x1 : (⟨S4096x100, .i32⟩ : BufTy).Contents (Elt F))
  (h0 : W (Proc.devRef .tc main_arg0) = x0) (h1 : W (Proc.devRef .tc main_v1) = val_main_v1 (F := F) x1)
  (h11 : W (Proc.devRef .tc main_v11) = val_main_v11 (F := F) x0 x1) (h16 : W (Proc.devRef .tc main_v16) = val_main_v16 (F := F) x0 x1)
  (h23 : W (Proc.devRef .tc main_v23) = val_main_v23 (F := F) x0 x1)
include h1 h11 h16 h23 in
set_option maxRecDepth 65536 in
set_option maxHeartbeats 4000000 in
theorem stD_v42 : after stD W (Proc.devRef .tc main_v42) = scalars (F := F) x0 x1 := by
  simp only [stD, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, join_v42]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h11, h16, h23,
    scalars, col, rowR, rowBx, rowBy, rowLo, rowHi, live, val_main_cst_9, val_main_v24, val_main_v25]
  simp only [join5]
include h0 in
set_option maxRecDepth 65536 in
set_option maxHeartbeats 4000000 in
theorem stD_v43 : after stD W (Proc.devRef .tc main_v43) = shapeCast S4096x20000 x0 shapeCasts_S4096x10000x2_S4096x20000 := by
  simp only [stD, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append, join_v42]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h0]
set_option maxRecDepth 65536 in
set_option maxHeartbeats 4000000 in
theorem stD_v44 : after stD W (Proc.devRef .tc main_v44) = iotaInDim S20000 32 0 := by
  simp only [stD, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
set_option maxRecDepth 65536 in
set_option maxHeartbeats 4000000 in
theorem stD_c18 : after stD W (Proc.devRef .tc main_c_18) = constantI S_ 32 2#32 := by
  simp only [stD, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end D

end Cert.KernelIdeal.HostSide

end
-- ==== Proof.KernelHostE.lean ====
/-
  The last stretch, folded: the lane parity row from the lane numbers.
-/
import proofs.«162652_j25099788878674_2_alg».proof.Proof.KernelHostDefs
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

section E
variable (W : Valuation τ sig (Elt Ideal))
  (h44 : W (Proc.devRef .tc main_v44) = iotaInDim S20000 32 0) (hc18 : W (Proc.devRef .tc main_c_18) = constantI S_ 32 2#32)
include h44 hc18 in
set_option maxRecDepth 65536 in
set_option maxHeartbeats 4000000 in
theorem stE_v47 : after (stE (F := Ideal)) W (Proc.devRef .tc main_v47) = Cert.KernelIdeal.Parity.parityRow := by
  simp only [stE, hostOps0_25, hostOps0_26, List.flatten_cons, List.flatten_nil, List.append_nil, List.cons_append, List.nil_append, main_call12_call0]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h44, hc18,
    Cert.KernelIdeal.Parity.parityRow, Cert.KernelIdeal.Parity.parityWords, Cert.KernelIdeal.Parity.crem, Cert.KernelIdeal.Parity.divisor]
set_option maxRecDepth 65536 in
set_option maxHeartbeats 4000000 in
theorem stE_v42 : after (stE (F := Ideal)) W (Proc.devRef .tc main_v42) = W (Proc.devRef .tc main_v42) := by
  simp only [stE, hostOps0_25, hostOps0_26, List.flatten_cons, List.flatten_nil, List.append_nil, List.cons_append, List.nil_append, main_call12_call0]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
set_option maxRecDepth 65536 in
set_option maxHeartbeats 4000000 in
theorem stE_v43 : after (stE (F := Ideal)) W (Proc.devRef .tc main_v43) = W (Proc.devRef .tc main_v43) := by
  simp only [stE, hostOps0_25, hostOps0_26, List.flatten_cons, List.flatten_nil, List.append_nil, List.cons_append, List.nil_append, main_call12_call0]
  simp (disch := decide) only [after_cons, after_nil, cast_call1_v5, cast_v7, cast_v9, cast_v43, cast_v47,
      col_ref0, col_ref1, col_ref2, col_ref3, col_ref4,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end E

end Cert.KernelIdeal.HostSide

end
-- ==== Proof.KernelHost.lean ====
/-
  The three operand arrays of the launch as it finds them: the four stretches of host operations before the launch,
  folded one after the other, leave the five row scalars joined, the points cast to [4096, 20000] and the lane parity row.
-/
import proofs.«162652_j25099788878674_2_alg».proof.Proof.KernelHostA
import proofs.«162652_j25099788878674_2_alg».proof.Proof.KernelHostB
import proofs.«162652_j25099788878674_2_alg».proof.Proof.KernelHostD
import proofs.«162652_j25099788878674_2_alg».proof.Proof.KernelHostE
import Idealize.ShloMosaic.Lib.Pipeline.Value
import Idealize.ShloMosaic.Lib.ValueIdx

-- one theorem at a time: each stretch's fold holds its terms in memory while it is unrolled
set_option Elab.async false

noncomputable section

namespace Cert.KernelIdeal.HostSide

open Cert.KernelIdeal Cert.KernelIdeal.Gen Cert.KernelIdeal.Around Cert.KernelIdeal.ReadK
open Idealize.ShloMosaic Idealize.ShloMosaic.TcCoe Idealize.SL.Sem Idealize.ShloMosaic.StableHlo Idealize.ShloMosaic.ValueIdx

variable {F : FTy → Type} [FloatOps F]

/-! ## The three operands as the launch finds them -/

section Operands
variable (M : Valuation τ sig (Elt Ideal))

theorem at_v42 : after (List.flatten (before (F := Ideal))) M (Proc.devRef .tc main_v42)
    = scalars (F := Ideal) (M (Proc.devRef .tc main_arg0)) (M (Proc.devRef .tc main_arg1)) := by
  rw [before_split, after_append, after_append, after_append, after_append, stE_v42]
  have a1 : after stA2 (after stA1 M) (Proc.devRef .tc main_v1) = val_main_v1 (F := Ideal) (M (Proc.devRef .tc main_arg1)) := (stA2_v1 _).trans (stA1_v1 M)
  have a5 : after stA2 (after stA1 M) (Proc.devRef .tc main_v5) = val_main_v5 (F := Ideal) (M (Proc.devRef .tc main_arg0)) (M (Proc.devRef .tc main_arg1)) :=
    stA2_v5 _ _ _ (stA1_arg0 M) (stA1_v4 M)
  exact stD_v42 _ _ _ ((stB_v1 _).trans a1) (stB_v11 _ _ _ a1 a5) (stB_v16 _ _ _ a1 a5) (stB_v23 _ _ _ a1 a5)

theorem at_v43 : after (List.flatten (before (F := Ideal))) M (Proc.devRef .tc main_v43)
    = shapeCast S4096x20000 (M (Proc.devRef .tc main_arg0)) shapeCasts_S4096x10000x2_S4096x20000 := by
  rw [before_split, after_append, after_append, after_append, after_append, stE_v43]
  exact stD_v43 _ _ ((stB_arg0 _).trans ((stA2_arg0 _).trans (stA1_arg0 M)))

theorem at_v47 : after (List.flatten (before (F := Ideal))) M (Proc.devRef .tc main_v47) = Cert.KernelIdeal.Parity.parityRow := by
  rw [before_split, after_append, after_append, after_append, after_append]
  exact stE_v47 _ (stD_v44 _) (stD_c18 _)

end Operands

end Cert.KernelIdeal.HostSide

end
-- ==== Proof.KernelRun.lean ====
/-
  The kernel program's run, with its result as a function of the two argument arrays.

  After the launch the one remaining host operation casts the launch's [4096, 20000] output to [4096, 10000, 2]. The
  output array after the launch is the whole-array function of the three operands as the launch finds them, and those
  are the points cast to [4096, 20000], the lane parity row and the five row scalars joined, each a function of the two
  argument arrays. So the result buffer ends at the kernel program's result function of the arguments.
-/
import proofs.«162652_j25099788878674_2_alg».proof.Proof.Bridge
import proofs.«162652_j25099788878674_2_alg».proof.Proof.KernelHost

noncomputable section

namespace Cert.KernelIdeal.Ran

open Cert.KernelIdeal Cert.KernelIdeal.Gen Cert.KernelIdeal.Around Cert.KernelIdeal.Whole Cert.KernelIdeal.HostSide
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The cast after the launch, read with the shapes spelt out. -/
theorem cast_v49 (he hn hx hy) (V : Valuation τ sig (Elt Ideal)) :
    (reshape (τ := τ) (Val := Elt Ideal) main_v48 main_v49 he hn hx hy).result V (no_index (Proc.devRef .tc main_v49))
      = shapeCast S4096x10000x2 (V (Proc.devRef .tc main_v48)) shapeCasts_S4096x20000_S4096x10000x2 := reshape_result _ _ he hn hx hy V

/-- The result buffer after the cast: the launch's output array, cast. -/
theorem tail_eq (c : Dev nD) :
    Pipeline.afterTail₀ cfgs (dats m) 0 (V0 m) [hostOps1] c main_v49
      = shapeCast S4096x10000x2 ((dats m 0 c).arrAt 3 cfg0.N) shapeCasts_S4096x20000_S4096x10000x2 := by
  unfold Pipeline.afterTail₀
  simp only [hostOps1, List.flatten_cons, List.flatten_nil, List.append_nil]
  simp (disch := decide) only [after_cons, after_nil, cast_v49]
  exact congrArg (fun X => shapeCast S4096x10000x2 X shapeCasts_S4096x20000_S4096x10000x2)
    (Pipeline.withArrays_arr spec0 launch0.win.arr_inj c _ _ 3)

/-- The result buffer at the end is the kernel program's result function of the two argument arrays. -/
theorem result_eq (c : Dev nD) :
    Pipeline.afterTail₀ cfgs (dats m) 0 (V0 m) [hostOps1] c main_v49
      = Cert.Bridge.kernelResult (m ((c.tc : Thread nD τ).loc main_arg0)) (m ((c.tc : Thread nD τ).loc main_arg1)) := by
  rw [tail_eq, final]
  have e43 : V m c main_v43 = shapeCast S4096x20000 (m ((c.tc : Thread nD τ).loc main_arg0)) shapeCasts_S4096x10000x2_S4096x20000 :=
    at_v43 (fun b => m (c, b))
  have e47 : V m c main_v47 = Cert.KernelIdeal.Parity.parityRow := at_v47 (fun b => m (c, b))
  have e42 : V m c main_v42 = scalars (F := Ideal) (m ((c.tc : Thread nD τ).loc main_arg0)) (m ((c.tc : Thread nD τ).loc main_arg1)) :=
    at_v42 (fun b => m (c, b))
  rw [e43, e47, e42]
  rfl

/-- Every weakly fair execution of the kernel program terminates without a fault, its result buffer at the result
    function of the two argument arrays and the arguments unchanged. -/
theorem run : θ_run defs (onTc (τ := τ) (main (F := Ideal))) ⟨m, fun _ => 0, ρ⟩ fun r => ∀ c : Dev nD,
      r.2.mem ((c.tc : Thread nD τ).loc main_v49)
        = Cert.Bridge.kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v49 (Pipeline.mem_restRefs_of main_v49 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Ran

end
-- ==== Proof.RefRun.lean ====
/-
  The reference's run and its result as the staged function.

  Every weakly fair execution of the straight-line reference terminates with each buffer at the fold of the program's
  operations over the launch contents. The fold is taken in three stretches: through the gathered candidates; through
  the reciprocal of the floored span; and the rest. Within a stretch each operation's result is read where a later
  operation of the stretch uses it, and what a stretch hands to the next is named by the staged functions, so that no
  term ever holds the whole program. At the result buffer the fold is the last staged function of the two arguments.
-/
import proofs.«162652_j25099788878674_2_alg».proof.Proof.RefOps
import proofs.«162652_j25099788878674_2_alg».proof.Proof.RefReadP

-- one theorem at a time: each stretch's fold holds its terms in memory while it is unrolled
set_option Elab.async false

noncomputable section

namespace Cert.ReferenceIdeal.Listed

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Folding a list of operations that is two lists joined is folding the first, then the second. -/
theorem after_append (l1 l2 : List (HloOp τ sig (Elt F))) (V : Valuation τ sig (Elt F)) :
    after (l1 ++ l2) V = after l2 (after l1 V) := by
  induction l1 generalizing V with
  | nil => rfl
  | cons op l ih => exact ih _

/-- The three casts of the program, read with the shapes spelt out. -/
theorem cast_call1_v5 (a b c d e f he hn) (V : Valuation τ sig (Elt F)) :
    (TRef.reshape (τ := τ) (Val := Elt F) (TRef.of (T := ⟨S4096x100x2, .i32⟩) main_call1_v4 a b c) (TRef.of (T := ⟨S4096x100x2x1, .i32⟩) main_call1_v5 d e f) he hn).result V (no_index (Proc.devRef .tc main_call1_v5))
      = shapeCast S4096x100x2x1 (V (Proc.devRef .tc main_call1_v4)) shapeCasts_S4096x100x2_S4096x100x2x1 := reshape_result _ _ _ _ _ _ V
theorem cast_v7 (he hn hx hy) (V : Valuation τ sig (Elt F)) :
    (reshape (τ := τ) (Val := Elt F) main_v6 main_v7 he hn hx hy).result V (no_index (Proc.devRef .tc main_v7))
      = shapeCast S4096x100 (V (Proc.devRef .tc main_v6)) shapeCasts_S4096x100x1_S4096x100 := reshape_result _ _ he hn hx hy V
theorem cast_v9 (he hn hx hy) (V : Valuation τ sig (Elt F)) :
    (reshape (τ := τ) (Val := Elt F) main_v8 main_v9 he hn hx hy).result V (no_index (Proc.devRef .tc main_v9))
      = shapeCast S4096x100 (V (Proc.devRef .tc main_v8)) shapeCasts_S4096x100x1_S4096x100 := reshape_result _ _ he hn hx hy V

/-- The two columns of minima joined, as a function of the columns. -/
def joinPair (a b : (⟨S4096x1, .f32⟩ : BufTy).Contents (Elt F)) : (⟨S4096x2, .f32⟩ : BufTy).Contents (Elt F) :=
  concatenate S4096x2 1 [⟨S4096x1, a⟩, ⟨S4096x1, b⟩] concatenates_S4096x1_S4096x1_S4096x2_d1
theorem join_v28 (ha hb hy) :
    binary (τ := τ) (Val := Elt F) main_v26 main_v27 main_v28 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)) ha hb hy
      = binary (τ := τ) (Val := Elt F) main_v26 main_v27 main_v28 (joinPair (F := F)) ha hb hy := rfl

/-! ## The three stretches -/

/-- Through the gathered candidates. -/
abbrev opsA : List (HloOp τ sig (Elt F)) :=
  [ nullary main_c (constantI S_ 32 4294967295#32),
    unary main_c main_v0 (broadcastInDim S4096x100 ![] bcast_S_S4096x100 : (⟨S_, .i32⟩ : BufTy).Contents (Elt F) → (⟨S4096x100, .i32⟩ : BufTy).Contents (Elt F)),
    binary main_arg1 main_v0 main_v1 (cmpi .ne : (⟨S4096x100, .i32⟩ : BufTy).Contents (Elt F) → (⟨S4096x100, .i32⟩ : BufTy).Contents (Elt F) → (⟨S4096x100, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4096x100, .i32⟩) main_call0_v1) (broadcastInDim S4096x100 ![] bcast_S_S4096x100),
    TRef.ternary (TRef.of (T := ⟨S4096x100, .i1⟩) main_v1) (TRef.of (T := ⟨S4096x100, .i32⟩) main_arg1) (TRef.of (T := ⟨S4096x100, .i32⟩) main_call0_v1) (TRef.of (T := ⟨S4096x100, .i32⟩) main_v2) select,
    unary main_v2 main_v3 (broadcastInDim S4096x100x1 ![0, 1] bcast_S4096x100_S4096x100x1_0_1 : (⟨S4096x100, .i32⟩ : BufTy).Contents (Elt F) → (⟨S4096x100x1, .i32⟩ : BufTy).Contents (Elt F)),
    unary main_v3 main_v4 (broadcastInDim S4096x100x2 ![0, 1, 2] bcast_S4096x100x1_S4096x100x2_0_1_2 : (⟨S4096x100x1, .i32⟩ : BufTy).Contents (Elt F) → (⟨S4096x100x2, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x100x2, .i32⟩) main_call1_v0) (broadcastInDim S4096x100x2 ![] bcast_S_S4096x100x2),
    TRef.binary (TRef.of (T := ⟨S4096x100x2, .i32⟩) main_v4) (TRef.of (T := ⟨S4096x100x2, .i32⟩) main_call1_v0) (TRef.of (T := ⟨S4096x100x2, .i1⟩) main_call1_v1) (cmpi .slt),
    TRef.nullary (TRef.of (T := ⟨S_, .i32⟩) main_call1_c_0) (constantI S_ 32 10000#32),
    TRef.unary (TRef.of (T := ⟨S_, .i32⟩) main_call1_c_0) (TRef.of (T := ⟨S4096x100x2, .i32⟩) main_call1_v2) (broadcastInDim S4096x100x2 ![] bcast_S_S4096x100x2),
    TRef.binary (TRef.of (T := ⟨S4096x100x2, .i32⟩) main_v4) (TRef.of (T := ⟨S4096x100x2, .i32⟩) main_call1_v2) (TRef.of (T := ⟨S4096x100x2, .i32⟩) main_call1_v3) addi,
    TRef.ternary (TRef.of (T := ⟨S4096x100x2, .i1⟩) main_call1_v1) (TRef.of (T := ⟨S4096x100x2, .i32⟩) main_call1_v3) (TRef.of (T := ⟨S4096x100x2, .i32⟩) main_v4) (TRef.of (T := ⟨S4096x100x2, .i32⟩) main_call1_v4) select,
    TRef.reshape (TRef.of (T := ⟨S4096x100x2, .i32⟩) main_call1_v4) (TRef.of (T := ⟨S4096x100x2x1, .i32⟩) main_call1_v5) rfl shapeCasts_S4096x100x2_S4096x100x2x1,
    TRef.nullary (TRef.of (T := ⟨S1, .i32⟩) main_call1_c_1) (constantI S1 32 9999#32),
    TRef.nullary (TRef.of (T := ⟨S_, .i32⟩) main_call1_c_2) (constantI S_ 32 0#32),
    TRef.unary (TRef.of (T := ⟨S_, .i32⟩) main_call1_c_2) (TRef.of (T := ⟨S4096x100x2x1, .i32⟩) main_call1_v6) (broadcastInDim S4096x100x2x1 ![] bcast_S_S4096x100x2x1),
    TRef.binary (TRef.of (T := ⟨S4096x100x2x1, .i32⟩) main_call1_v5) (TRef.of (T := ⟨S4096x100x2x1, .i32⟩) main_call1_v6) (TRef.of (T := ⟨S4096x100x2x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4096x100x2x1, .i32⟩) main_call1_v9) (broadcastInDim S4096x100x2x1 ![0, 1, 2, 3] bcast_S1x1x1x1_S4096x100x2x1_0_1_2_3),
    TRef.binary (TRef.of (T := ⟨S4096x100x2x1, .i32⟩) main_call1_v5) (TRef.of (T := ⟨S4096x100x2x1, .i32⟩) main_call1_v9) (TRef.of (T := ⟨S4096x100x2x1, .i1⟩) main_call1_v10) (cmpi .sle),
    TRef.binary (TRef.of (T := ⟨S4096x100x2x1, .i1⟩) main_call1_v7) (TRef.of (T := ⟨S4096x100x2x1, .i1⟩) main_call1_v10) (TRef.of (T := ⟨S4096x100x2x1, .i1⟩) main_call1_v11) andi,
    TRef.nullary (TRef.of (T := ⟨S_, .i1⟩) main_call1_c_3) (constantI S_ 1 1#1),
    TRef.binary (TRef.of (T := ⟨S4096x100x2x1, .i1⟩) main_call1_v11) (TRef.of (T := ⟨S_, .i1⟩) main_call1_c_3) (TRef.of (T := ⟨S4096x100x2, .i1⟩) main_call1_v12) (fun x v => Host.reduce IntOp.andi x v reducesTo_S4096x100x2x1_S4096x100x2_d3 h_S_),
    TRef.binary (TRef.of (T := ⟨S4096x10000x2, .f32⟩) main_arg0) (TRef.of (T := ⟨S4096x100x2x1, .i32⟩) main_call1_v5) (TRef.of (T := ⟨S4096x100x2, .f32⟩) main_call1_v13) (fun x i => Host.gather gather_S4096x10000x2_S4096x100x2x1_S4096x100x2_n_1_02_02_1_3_111 x i),
    TRef.nullary (TRef.of (T := ⟨S_, .f32⟩) main_call1_cst) (constant S_ .f32 0x7FC00000#32),
    TRef.unary (TRef.of (T := ⟨S_, .f32⟩) main_call1_cst) (TRef.of (T := ⟨S4096x100x2, .f32⟩) main_call1_v14) (broadcastInDim S4096x100x2 ![] bcast_S_S4096x100x2),
    TRef.ternary (TRef.of (T := ⟨S4096x100x2, .i1⟩) main_call1_v12) (TRef.of (T := ⟨S4096x100x2, .f32⟩) main_call1_v13) (TRef.of (T := ⟨S4096x100x2, .f32⟩) main_call1_v14) (TRef.of (T := ⟨S4096x100x2, .f32⟩) main_v5) select ]
/-- Through the reciprocal of the floored span. -/
abbrev opsB : List (HloOp τ sig (Elt F)) :=
  [ unary main_v5 main_v6 ((extractStridedSlice S4096x100x1 ![0, 0, 0] · slices_S4096x100x2_S4096x100x1_0_0_0) : (⟨S4096x100x2, .f32⟩ : BufTy).Contents (Elt F) → (⟨S4096x100x1, .f32⟩ : BufTy).Contents (Elt F)),
    reshape main_v6 main_v7 rfl shapeCasts_S4096x100x1_S4096x100,
    unary main_v5 main_v8 ((extractStridedSlice S4096x100x1 ![0, 0, 1] · slices_S4096x100x2_S4096x100x1_0_0_1) : (⟨S4096x100x2, .f32⟩ : BufTy).Contents (Elt F) → (⟨S4096x100x1, .f32⟩ : BufTy).Contents (Elt F)),
    reshape main_v8 main_v9 rfl shapeCasts_S4096x100x1_S4096x100,
    nullary main_cst (constant S_ .f32 0x7F800000#32),
    TRef.unary (TRef.of (T := ⟨S_, .f32⟩) main_cst) (TRef.of (T := ⟨S4096x100, .f32⟩) main_call2_v0) (broadcastInDim S4096x100 ![] bcast_S_S4096x100),
    TRef.ternary (TRef.of (T := ⟨S4096x100, .i1⟩) main_v1) (TRef.of (T := ⟨S4096x100, .f32⟩) main_v7) (TRef.of (T := ⟨S4096x100, .f32⟩) main_call2_v0) (TRef.of (T := ⟨S4096x100, .f32⟩) main_v10) select,
    nullary main_cst_1 (constant S_ .f32 0x7F800000#32),
    binary main_v10 main_cst_1 main_v11 ((fun x v => Host.reduce FloatOps.minimumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_2 (constant S_ .f32 0x7F800000#32),
    unary main_cst_2 main_v12 (Host.negf : (⟨S_, .f32⟩ : BufTy).Contents (Elt F) → (⟨S_, .f32⟩ : BufTy).Contents (Elt F)),
    TRef.unary (TRef.of (T := ⟨S_, .f32⟩) main_v12) (TRef.of (T := ⟨S4096x100, .f32⟩) main_call3_v0) (broadcastInDim S4096x100 ![] bcast_S_S4096x100),
    TRef.ternary (TRef.of (T := ⟨S4096x100, .i1⟩) main_v1) (TRef.of (T := ⟨S4096x100, .f32⟩) main_v7) (TRef.of (T := ⟨S4096x100, .f32⟩) main_call3_v0) (TRef.of (T := ⟨S4096x100, .f32⟩) main_v13) select,
    nullary main_cst_3 (constant S_ .f32 0xFF800000#32),
    binary main_v13 main_cst_3 main_v14 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_4 (constant S_ .f32 0x7F800000#32),
    TRef.unary (TRef.of (T := ⟨S_, .f32⟩) main_cst_4) (TRef.of (T := ⟨S4096x100, .f32⟩) main_call4_v0) (broadcastInDim S4096x100 ![] bcast_S_S4096x100),
    TRef.ternary (TRef.of (T := ⟨S4096x100, .i1⟩) main_v1) (TRef.of (T := ⟨S4096x100, .f32⟩) main_v9) (TRef.of (T := ⟨S4096x100, .f32⟩) main_call4_v0) (TRef.of (T := ⟨S4096x100, .f32⟩) main_v15) select,
    nullary main_cst_5 (constant S_ .f32 0x7F800000#32),
    binary main_v15 main_cst_5 main_v16 ((fun x v => Host.reduce FloatOps.minimumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_6 (constant S_ .f32 0x7F800000#32),
    unary main_cst_6 main_v17 (Host.negf : (⟨S_, .f32⟩ : BufTy).Contents (Elt F) → (⟨S_, .f32⟩ : BufTy).Contents (Elt F)),
    TRef.unary (TRef.of (T := ⟨S_, .f32⟩) main_v17) (TRef.of (T := ⟨S4096x100, .f32⟩) main_call5_v0) (broadcastInDim S4096x100 ![] bcast_S_S4096x100),
    TRef.ternary (TRef.of (T := ⟨S4096x100, .i1⟩) main_v1) (TRef.of (T := ⟨S4096x100, .f32⟩) main_v9) (TRef.of (T := ⟨S4096x100, .f32⟩) main_call5_v0) (TRef.of (T := ⟨S4096x100, .f32⟩) main_v18) select,
    nullary main_cst_7 (constant S_ .f32 0xFF800000#32),
    binary main_v18 main_cst_7 main_v19 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    binary main_v14 main_v11 main_v20 (subf : (⟨S4096, .f32⟩ : BufTy).Contents (Elt F) → (⟨S4096, .f32⟩ : BufTy).Contents (Elt F) → (⟨S4096, .f32⟩ : BufTy).Contents (Elt F)),
    binary main_v19 main_v16 main_v21 (subf : (⟨S4096, .f32⟩ : BufTy).Contents (Elt F) → (⟨S4096, .f32⟩ : BufTy).Contents (Elt F) → (⟨S4096, .f32⟩ : BufTy).Contents (Elt F)),
    binary main_v20 main_v21 main_v22 (maximumf : (⟨S4096, .f32⟩ : BufTy).Contents (Elt F) → (⟨S4096, .f32⟩ : BufTy).Contents (Elt F) → (⟨S4096, .f32⟩ : BufTy).Contents (Elt F)),
    nullary main_cst_8 (constant S_ .f32 0x358637BD#32),
    TRef.unary (TRef.of (T := ⟨S_, .f32⟩) main_cst_8) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_v22) (TRef.of (T := ⟨S4096, .f32⟩) main_v23) maximumf,
    nullary main_cst_9 (constant S_ .f32 0x3F800000#32),
    unary main_cst_9 main_v24 (broadcastInDim S4096 ![] bcast_S_S4096 : (⟨S_, .f32⟩ : BufTy).Contents (Elt F) → (⟨S4096, .f32⟩ : BufTy).Contents (Elt F)),
    binary main_v24 main_v23 main_v25 (Host.divf : (⟨S4096, .f32⟩ : BufTy).Contents (Elt F) → (⟨S4096, .f32⟩ : BufTy).Contents (Elt F) → (⟨S4096, .f32⟩ : BufTy).Contents (Elt F)) ]
/-- The rest. -/
abbrev opsC : List (HloOp τ sig (Elt F)) :=
  [ unary main_v11 main_v26 (broadcastInDim S4096x1 ![0] bcast_S4096_S4096x1_0 : (⟨S4096, .f32⟩ : BufTy).Contents (Elt F) → (⟨S4096x1, .f32⟩ : BufTy).Contents (Elt F)),
    unary main_v16 main_v27 (broadcastInDim S4096x1 ![0] bcast_S4096_S4096x1_0 : (⟨S4096, .f32⟩ : BufTy).Contents (Elt F) → (⟨S4096x1, .f32⟩ : BufTy).Contents (Elt F)),
    binary main_v26 main_v27 main_v28 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v25 main_v29 (broadcastInDim S4096x1x1 ![0] bcast_S4096_S4096x1x1_0 : (⟨S4096, .f32⟩ : BufTy).Contents (Elt F) → (⟨S4096x1x1, .f32⟩ : BufTy).Contents (Elt F)),
    unary main_v28 main_v30 (broadcastInDim S4096x1x2 ![0, 2] bcast_S4096x2_S4096x1x2_0_2 : (⟨S4096x2, .f32⟩ : BufTy).Contents (Elt F) → (⟨S4096x1x2, .f32⟩ : BufTy).Contents (Elt F)),
    unary main_v30 main_v31 (broadcastInDim S4096x10000x2 ![0, 1, 2] bcast_S4096x1x2_S4096x10000x2_0_1_2 : (⟨S4096x1x2, .f32⟩ : BufTy).Contents (Elt F) → (⟨S4096x10000x2, .f32⟩ : BufTy).Contents (Elt F)),
    binary main_arg0 main_v31 main_v32 (subf : (⟨S4096x10000x2, .f32⟩ : BufTy).Contents (Elt F) → (⟨S4096x10000x2, .f32⟩ : BufTy).Contents (Elt F) → (⟨S4096x10000x2, .f32⟩ : BufTy).Contents (Elt F)),
    unary main_v29 main_v33 (broadcastInDim S4096x10000x2 ![0, 1, 2] bcast_S4096x1x1_S4096x10000x2_0_1_2 : (⟨S4096x1x1, .f32⟩ : BufTy).Contents (Elt F) → (⟨S4096x10000x2, .f32⟩ : BufTy).Contents (Elt F)),
    binary main_v33 main_v32 main_v34 (mulf : (⟨S4096x10000x2, .f32⟩ : BufTy).Contents (Elt F) → (⟨S4096x10000x2, .f32⟩ : BufTy).Contents (Elt F) → (⟨S4096x10000x2, .f32⟩ : BufTy).Contents (Elt F)),
    nullary main_cst_10 (constant S_ .f32 0x00000000#32),
    nullary main_cst_11 (constant S_ .f32 0x3F800000#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S4096x10000x2, .f32⟩) main_call7_v1) (broadcastInDim S4096x10000x2 ![] bcast_S_S4096x10000x2),
    TRef.binary (TRef.of (T := ⟨S4096x10000x2, .f32⟩) main_call7_v1) (TRef.of (T := ⟨S4096x10000x2, .f32⟩) main_v34) (TRef.of (T := ⟨S4096x10000x2, .f32⟩) main_call7_v2) maximumf,
    TRef.unary (TRef.of (T := ⟨S_, .f32⟩) main_cst_11) (TRef.of (T := ⟨S_, .f32⟩) main_call7_v3) id,
    TRef.unary (TRef.of (T := ⟨S_, .f32⟩) main_call7_v3) (TRef.of (T := ⟨S4096x10000x2, .f32⟩) main_call7_v4) (broadcastInDim S4096x10000x2 ![] bcast_S_S4096x10000x2),
    TRef.binary (TRef.of (T := ⟨S4096x10000x2, .f32⟩) main_call7_v4) (TRef.of (T := ⟨S4096x10000x2, .f32⟩) main_call7_v2) (TRef.of (T := ⟨S4096x10000x2, .f32⟩) main_v35) minimumf,
    nullary main_c_12 (constantI S_ 1 0#1),
    binary main_v1 main_c_12 main_v36 ((fun x v => Host.reduce IntOp.ori x v reducesTo_S4096x100_S4096_d1 h_S_) : (⟨S4096x100, .i1⟩ : BufTy).Contents (Elt F) → (⟨S_, .i1⟩ : BufTy).Contents (Elt F) → (⟨S4096, .i1⟩ : BufTy).Contents (Elt F)),
    unary main_v36 main_v37 (broadcastInDim S4096x1x1 ![0] bcast_S4096_S4096x1x1_0 : (⟨S4096, .i1⟩ : BufTy).Contents (Elt F) → (⟨S4096x1x1, .i1⟩ : BufTy).Contents (Elt F)),
    TRef.unary (TRef.of (T := ⟨S4096x1x1, .i1⟩) main_v37) (TRef.of (T := ⟨S4096x10000x2, .i1⟩) main_call8_v0) (broadcastInDim S4096x10000x2 ![0, 1, 2] bcast_S4096x1x1_S4096x10000x2_0_1_2),
    TRef.ternary (TRef.of (T := ⟨S4096x10000x2, .i1⟩) main_call8_v0) (TRef.of (T := ⟨S4096x10000x2, .f32⟩) main_v35) (TRef.of (T := ⟨S4096x10000x2, .f32⟩) main_arg0) (TRef.of (T := ⟨S4096x10000x2, .f32⟩) main_v38) select ]

set_option maxRecDepth 8192 in
theorem ops_split : (ops : List (HloOp τ sig (Elt F))) = opsA ++ (opsB ++ opsC) := rfl

section A
variable (W : Valuation τ sig (Elt F))
set_option maxRecDepth 65536 in
set_option maxHeartbeats 4000000 in
theorem stageA_v1 : after opsA W (Proc.devRef .tc main_v1) = val_main_v1 (F := F) (W (Proc.devRef .tc main_arg1)) := by
  simp only [opsA]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq,
    val_main_c, val_main_v0, val_main_v1, val_main_c_0, val_main_call0_v0, val_main_call0_v1, val_main_v2, val_main_v3, val_main_v4, val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_v13, val_main_call1_cst, val_main_call1_v14, val_main_v5]
set_option maxRecDepth 65536 in
set_option maxHeartbeats 4000000 in
theorem stageA_v5 : after opsA W (Proc.devRef .tc main_v5) = val_main_v5 (F := F) (W (Proc.devRef .tc main_arg0)) (W (Proc.devRef .tc main_arg1)) := by
  simp only [opsA]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq,
    val_main_c, val_main_v0, val_main_v1, val_main_c_0, val_main_call0_v0, val_main_call0_v1, val_main_v2, val_main_v3, val_main_v4, val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_v13, val_main_call1_cst, val_main_call1_v14, val_main_v5]
set_option maxRecDepth 65536 in
set_option maxHeartbeats 4000000 in
theorem stageA_arg0 : after opsA W (Proc.devRef .tc main_arg0) = W (Proc.devRef .tc main_arg0) := by
  simp only [opsA]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end A

section B
variable (W : Valuation τ sig (Elt F)) (x0 : (⟨S4096x10000x2, .f32⟩ : BufTy).Contents (Elt F)) (x1 : (⟨S4096x100, .i32⟩ : BufTy).Contents (Elt F))
  (h1 : W (Proc.devRef .tc main_v1) = val_main_v1 (F := F) x1) (h5 : W (Proc.devRef .tc main_v5) = val_main_v5 (F := F) x0 x1)
include h1 h5
set_option maxRecDepth 65536 in
set_option maxHeartbeats 4000000 in
theorem stageB_v11 : after opsB W (Proc.devRef .tc main_v11) = val_main_v11 (F := F) x0 x1 := by
  simp only [opsB]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23, val_main_cst_9, val_main_v24, val_main_v25]
set_option maxRecDepth 65536 in
set_option maxHeartbeats 4000000 in
theorem stageB_v16 : after opsB W (Proc.devRef .tc main_v16) = val_main_v16 (F := F) x0 x1 := by
  simp only [opsB]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23, val_main_cst_9, val_main_v24, val_main_v25]
set_option maxRecDepth 65536 in
set_option maxHeartbeats 4000000 in
theorem stageB_v25 : after opsB W (Proc.devRef .tc main_v25) = val_main_v25 (F := F) x0 x1 := by
  simp only [opsB]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h1, h5,
    val_main_v6, val_main_v7, val_main_v8, val_main_v9, val_main_cst, val_main_call2_v0, val_main_v10, val_main_cst_1, val_main_v11, val_main_cst_2, val_main_v12, val_main_call3_v0, val_main_v13, val_main_cst_3, val_main_v14, val_main_cst_4, val_main_call4_v0, val_main_v15, val_main_cst_5, val_main_v16, val_main_cst_6, val_main_v17, val_main_call5_v0, val_main_v18, val_main_cst_7, val_main_v19, val_main_v20, val_main_v21, val_main_v22, val_main_cst_8, val_main_call6_v0, val_main_call6_v1, val_main_v23, val_main_cst_9, val_main_v24, val_main_v25]
omit h1 h5 in
set_option maxRecDepth 65536 in
set_option maxHeartbeats 4000000 in
theorem stageB_v1 : after opsB W (Proc.devRef .tc main_v1) = W (Proc.devRef .tc main_v1) := by
  simp only [opsB]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
omit h1 h5 in
set_option maxRecDepth 65536 in
set_option maxHeartbeats 4000000 in
theorem stageB_arg0 : after opsB W (Proc.devRef .tc main_arg0) = W (Proc.devRef .tc main_arg0) := by
  simp only [opsB]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
end B

section C
variable (W : Valuation τ sig (Elt F)) (x0 : (⟨S4096x10000x2, .f32⟩ : BufTy).Contents (Elt F)) (x1 : (⟨S4096x100, .i32⟩ : BufTy).Contents (Elt F))
  (h0 : W (Proc.devRef .tc main_arg0) = x0) (h1 : W (Proc.devRef .tc main_v1) = val_main_v1 (F := F) x1)
  (h11 : W (Proc.devRef .tc main_v11) = val_main_v11 (F := F) x0 x1) (h16 : W (Proc.devRef .tc main_v16) = val_main_v16 (F := F) x0 x1)
  (h25 : W (Proc.devRef .tc main_v25) = val_main_v25 (F := F) x0 x1)
include h0 h1 h11 h16 h25
set_option maxRecDepth 65536 in
set_option maxHeartbeats 4000000 in
theorem stageC_v38 : after opsC W (Proc.devRef .tc main_v38) = val_main_v38 (F := F) x0 x1 := by
  simp only [opsC, join_v28]
  simp (disch := decide) only [after_cons, after_nil, cast_call1_v5, cast_v7, cast_v9,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.toBuf, TRef.ofBuf, cast_eq, id_eq, h0, h1, h11, h16, h25,
    val_main_v26, val_main_v27, val_main_v28, val_main_v29, val_main_v30, val_main_v31, val_main_v32, val_main_v33, val_main_v34, val_main_cst_10, val_main_cst_11, val_main_call7_v0, val_main_call7_v1, val_main_call7_v2, val_main_call7_v3, val_main_call7_v4, val_main_v35, val_main_c_12, val_main_v36, val_main_v37, val_main_call8_v0, val_main_v38]
  simp only [joinPair]
end C

/-- The fold of the program's operations, at the result buffer, is the last staged function of the two argument arrays. -/
theorem value_eq (M : Valuation τ sig (Elt F)) :
    after ops M (Proc.devRef .tc main_v38) = val_main_v38 (F := F) (M (Proc.devRef .tc main_arg0)) (M (Proc.devRef .tc main_arg1)) := by
  rw [ops_split, after_append, after_append]
  have a1 := stageA_v1 M
  have a5 := stageA_v5 M
  exact stageC_v38 _ _ _ ((stageB_arg0 _).trans (stageA_arg0 M)) ((stageB_v1 _).trans a1)
    (stageB_v11 _ _ _ a1 a5) (stageB_v16 _ _ _ a1 a5) (stageB_v25 _ _ _ a1 a5)

/-- On every device: every weakly fair execution of the reference terminates, its result buffer at the last staged
    function of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = val_main_v38 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (value_eq (launchContents m c)),
      (h c main_arg0).trans (after_of_forall_not_mem (b := Proc.devRef .tc main_arg0) _ _ (List.forall_iff_forall_mem.mp (by
        simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
        repeat' apply And.intro
        all_goals exact StableHlo.devRef_ne_of_ne (by decide)))),
      (h c main_arg1).trans (after_of_forall_not_mem (b := Proc.devRef .tc main_arg1) _ _ (List.forall_iff_forall_mem.mp (by
        simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
        repeat' apply And.intro
        all_goals exact StableHlo.devRef_ne_of_ne (by decide))))⟩)
    (run_seq scopedRefs_eq scopedSems_eq defs main (fun _ => ops) main_eq (fun _ => ops_sub) m ρ)

end Cert.ReferenceIdeal.Listed

end
-- ==== Proof.PreDecode.lean ====
/-
  What the precondition says, entry by entry.

  The precondition is the conjunction of two reductions by "and" over whole arrays: |x| < +∞ at every point coordinate,
  and −10000 ≤ w < 10000 (signed) at every candidate index. A reduction by "and" that gives 1 met 1 at every entry, so
  every point coordinate is a real number (an extended real whose absolute value is below +∞) and every index is in
  that range.
-/
import proofs.«162652_j25099788878674_2_alg».proof.Pre_finite_inputs
import proofs.«162652_j25099788878674_2_alg».proof.Proof.Gen.Pre_finite_inputs
import proofs.«162652_j25099788878674_2_alg».proof.Proof.ElemAlgebra
import Idealize.ShloMosaic.PureOps.Ideal
import Idealize.ShloMosaic.Lib.ReduceAll
import Idealize.ShloMosaic.Lib.Affine
import Idealize.ShloMosaic.Lib.WordArith
import Idealize.ShloMosaic.Lib.ValueIdx

noncomputable section

namespace Cert.Pre_finite_inputs.Decode

open Cert.Pre_finite_inputs Idealize.ShloMosaic Idealize.ShloMosaic.ValueIdx Cert.NormAlgebra

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    unfold Ideal.cmp at h
    dsimp only at h
    rw [decide_eq_false hn] at h
    exact absurd h (by decide)
  induction x using EReal.rec with
  | bot => simp at hlt
  | coe r => exact ⟨r, rfl⟩
  | top => simp at hlt

instance : Subsingleton S_.Idx := ⟨fun a b => funext fun d => d.elim0⟩

/-- The precondition, entry by entry. -/
theorem decode (a0 : FVec Ideal S4096x10000x2 .f32) (a1 : IVec S4096x100 32) (h : fn (F := Ideal) a0 a1 = fun _ => 1#1) :
    (∀ i, ∃ r : ℝ, a0 i = (r : EReal))
      ∧ ∀ i, IntOp.cmpi .sge (a1 i) 4294957296#32 = 1#1 ∧ IntOp.cmpi .slt (a1 i) 10000#32 = 1#1 := by
  have h0 := congrFun h ix0
  dsimp only [fn] at h0
  change IntOp.andi _ _ = 1#1 at h0
  rw [IntOp.andi_eq_one] at h0
  obtain ⟨h3, h9⟩ := h0
  constructor
  · intro i
    have e := Host.reduce_andi_all _ _ _ _ _ h3 i
    exact real_of_abs_lt (a0 i) e
  · intro i
    have e := Host.reduce_andi_all _ _ _ _ _ h9 i
    change IntOp.andi _ _ = 1#1 at e
    rw [IntOp.andi_eq_one] at e
    exact e

end Cert.Pre_finite_inputs.Decode

end
-- ==== Proof.lean ====
/-
  The certificate of the kernel against its reference, at the extended reals.

  The kernel normalises every point of a batch row by the row's candidate bounding box: out = clip (rr · (x − min), 0, 1)
  with rr the reciprocal of the floored span, and leaves a row without candidates as it is. The kernel program folds the
  affine map and the no-candidate case into five per-row scalars on the host and applies x · r + (bx or by) then a clamp in
  one launch over the flattened points; the reference writes the formula directly. The three frames come from the runs:
  the two kernel programs' from the launch library around the one launch, the reference's from the run of a straight-line
  host program. The idealization rewrote nothing. The value claim compares the two result functions entry by entry
  under the precondition: point coordinates finite, candidate indices w with −10000 ≤ w < 10000.
-/
import proofs.«162652_j25099788878674_2_alg».proof.Defs
import proofs.«162652_j25099788878674_2_alg».proof.Proof.Gen.Kernel
import proofs.«162652_j25099788878674_2_alg».proof.Proof.Gen.KernelIdeal
import proofs.«162652_j25099788878674_2_alg».proof.Proof.Gen.ReferenceIdeal
import proofs.«162652_j25099788878674_2_alg».proof.Proof.Gen.Pre_finite_inputs
import proofs.«162652_j25099788878674_2_alg».proof.Proof.KernelAround
import proofs.«162652_j25099788878674_2_alg».proof.Proof.KernelRun
import proofs.«162652_j25099788878674_2_alg».proof.Proof.RefRun
import proofs.«162652_j25099788878674_2_alg».proof.Proof.PreDecode
import Idealize.ShloMosaic.Adequacy
import Idealize.ShloMosaic.Init

noncomputable section

namespace Cert.Proof

open Idealize.ShloMosaic Idealize.SL.Sem

/-- The kernel program as printed runs to the end, faults nowhere and leaves its arguments unchanged. -/
theorem frame_k : Cert.frame_Kernel := fun m ρ _ => Cert.Kernel.Around.frame m ρ

/-- So does its idealization. -/
theorem frame_ki : Cert.frame_KernelIdeal := fun m ρ _ => Cert.KernelIdeal.Around.frame m ρ

/-- And the reference: its run, the result dropped. -/
theorem frame_ri : Cert.frame_ReferenceIdeal := fun m ρ _ =>
  (θ_run Cert.ReferenceIdeal.defs _ _).mono (fun _ h c => (h c).2) (Cert.ReferenceIdeal.Listed.run (F := Ideal) m ρ)

/-- The idealization rewrote no operation. -/
theorem preserves : Cert.preserves_Kernel_KernelIdeal := trivial

/-- From memories agreeing on the arguments both programs run, and their results are equal entry by entry: the kernel
    program's result function and the reference's agree under the precondition's two facts. -/
theorem algebraic : Cert.algebraic_KernelIdeal_ReferenceIdeal := by
  intro m ρ m' ρ' hpre hagree
  have hdec := fun c => Cert.Pre_finite_inputs.Decode.decode _ _ (hpre c)
  refine ⟨fun c => Cert.Bridge.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Ran.run m ρ, ?_⟩
  refine (θ_run Cert.ReferenceIdeal.defs _ _).mono (fun _ h c => ⟨(h c).1.trans ?_, (h c).2⟩)
    (Cert.ReferenceIdeal.Listed.run (F := Ideal) m' ρ')
  rw [(hagree c).1, (hagree c).2]
  exact (Cert.Bridge.result_eq _ _ (hdec c).1 (hdec c).2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
